-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1 : Shape := ⟨3, ![4, 4096, 1]⟩
abbrev S4x4096x512 : Shape := ⟨3, ![4, 4096, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S1 : Shape := ⟨1, ![1]⟩
abbrev S_ : Shape := ⟨0, ![]⟩

class Facts : Prop where
  bcast_S_S4x4096x1 : S_.BroadcastsInDim S4x4096x1 (![] : Fin 0 → Fin S4x4096x1.rank)
  reducesTo_S4x4096x1_S_d0_1_2 : S4x4096x1.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x64 .f32) (main_arg8 : FVec F S1 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64x1 .f32) (main_arg5 : FVec F S64 .f32) (main_arg6 : FVec F S64x512 .f32) (main_arg7 : FVec F S1x64 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_v33

def fn {F : FTy → Type} [FloatOps F] (main_arg0 : FVec F S4x4096x1 .f32) (main_arg1 : FVec F S4x4096x512 .f32) (main_arg2 : FVec F S64x512 .f32) (main_arg3 : FVec F S64 .f32) (main_arg4 : FVec F S64x1 .f32) (main_arg5 : FVec F S64 .f32) (main_arg6 : FVec F S64x512 .f32) (main_arg7 : FVec F S1x64 .f32) (main_arg8 : FVec F S1 .f32) : IVec S_ 1 :=
  let main_v0 : FVec F S4x4096x1 .f32 := Host.absf main_arg0
  let main_cst : FVec F S_ .f32 := constant S_ .f32 0x7F800000#32
  let main_v1 : FVec F S4x4096x1 .f32 := broadcastInDim S4x4096x1 ![] bcast_S_S4x4096x1 main_cst
  let main_v2 : IVec S4x4096x1 1 := cmpf .olt main_v0 main_v1
  let main_c : IVec S_ 1 := constantI S_ 1 1#1
  let main_v3 : IVec S_ 1 := (fun x v => Host.reduce IntOp.andi x v reducesTo_S4x4096x1_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S4x4096x1 : Shape := ⟨3, ![4, 4096, 1]⟩
abbrev S4x4096x512 : Shape := ⟨3, ![4, 4096, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S1 : Shape := ⟨1, ![1]⟩
abbrev S128x512 : Shape := ⟨2, ![128, 512]⟩
abbrev S_ : Shape := ⟨0, ![]⟩
abbrev S128 : Shape := ⟨1, ![128]⟩
abbrev S1x128 : Shape := ⟨2, ![1, 128]⟩
abbrev S4x4096x128 : Shape := ⟨3, ![4, 4096, 128]⟩
abbrev S1x4096x512 : Shape := ⟨3, ![1, 4096, 512]⟩
abbrev S1x4096x128 : Shape := ⟨3, ![1, 4096, 128]⟩
abbrev S4096x512 : Shape := ⟨2, ![4096, 512]⟩
abbrev S4096x128 : Shape := ⟨2, ![4096, 128]⟩
abbrev S1x1 : Shape := ⟨2, ![1, 1]⟩
abbrev S1x4096x1 : Shape := ⟨3, ![1, 4096, 1]⟩
abbrev S4096x64 : Shape := ⟨2, ![4096, 64]⟩
abbrev S4096x1 : Shape := ⟨2, ![4096, 1]⟩
abbrev S1x256x128 : Shape := ⟨3, ![1, 256, 128]⟩
abbrev S256x128 : Shape := ⟨2, ![256, 128]⟩
abbrev S256x64 : Shape := ⟨2, ![256, 64]⟩
abbrev S4096x256 : Shape := ⟨2, ![4096, 256]⟩
abbrev S256 : Shape := ⟨1, ![256]⟩
abbrev S1x256 : Shape := ⟨2, ![1, 256]⟩
abbrev S4096 : Shape := ⟨1, ![4096]⟩
abbrev S4x4096 : Shape := ⟨2, ![4, 4096]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1, .f32⟩
  | .hbm, ⟨1, _⟩ => ⟨S4x4096x512, .f32⟩
  | .hbm, ⟨2, _⟩ => ⟨S64x512, .f32⟩
  | .hbm, ⟨3, _⟩ => ⟨S64, .f32⟩
  | .hbm, ⟨4, _⟩ => ⟨S64x1, .f32⟩
  | .hbm, ⟨5, _⟩ => ⟨S64, .f32⟩
  | .hbm, ⟨6, _⟩ => ⟨S64x512, .f32⟩
  | .hbm, ⟨7, _⟩ => ⟨S1x64, .f32⟩
  | .hbm, ⟨8, _⟩ => ⟨S1, .f32⟩
  | .hbm, ⟨9, _⟩ => ⟨S128x512, .f32⟩
  | .hbm, ⟨10, _⟩ => ⟨S_, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S4x4096x128, .f32⟩
  | .hbm, ⟨15, _⟩ => ⟨S1x64, .f32⟩
  | .hbm, ⟨16, _⟩ => ⟨S1x64, .f32⟩
  | .hbm, ⟨17, _⟩ => ⟨S1x1, .f32⟩
  | .hbm, ⟨18, _⟩ => ⟨S4x4096x1, .f32⟩
  | .hbm, ⟨19, _⟩ => ⟨S4x4096, .f32⟩
  | .local _ .vmem, ⟨0, _⟩ => ⟨S1x4096x512, .f32⟩
  | .local _ .vmem, ⟨1, _⟩ => ⟨S1x4096x512, .f32⟩
  | .local _ .vmem, ⟨2, _⟩ => ⟨S128x512, .f32⟩
  | .local _ .vmem, ⟨3, _⟩ => ⟨S1x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x1, .f32⟩
  | .local _ .vmem, ⟨7, _⟩ => ⟨S1x4096x1, .f32⟩
  | .local _ .vmem, ⟨8, _⟩ => ⟨S1x64, .f32⟩
  | .local _ .vmem, ⟨9, _⟩ => ⟨S1x64, .f32⟩
  | .local _ .vmem, ⟨10, _⟩ => ⟨S1x4096x128, .f32⟩
  | .local _ .vmem, ⟨11, _⟩ => ⟨S1x4096x128, .f32⟩
  | .local _ .vmem, ⟨12, _⟩ => ⟨S1x64, .f32⟩
  | .local _ .vmem, ⟨13, _⟩ => ⟨S1x1, .f32⟩
  | .local _ .vmem, ⟨14, _⟩ => ⟨S1x4096x1, .f32⟩
  | .local _ .vmem, ⟨15, _⟩ => ⟨S1x4096x1, .f32⟩
  | .local _ .vmem, ⟨16, _⟩ => ⟨S4096x64, .f32⟩
  | _, _ => ⟨S4x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

@[reducible] def k1_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k1_mult1 (k1_t1 : Fin k1_t1_loop.trips) : BitVec 32 :=
  let c0_i32_20 : BitVec 32 := 0#32
  let c0_i32 : BitVec 32 := 0#32
  let c1_i32 : BitVec 32 := 1#32
  let arg9 : BitVec 32 := Scf.iv c0_i32 c1_i32 k1_t1
  let c1_i32_19 : BitVec 32 := 1#32
  let v32 : BitVec 32 := Scalar.muli arg9 c1_i32_19
  let v33 : BitVec 32 := Scalar.addi c0_i32_20 v32
  let c256_i32 : BitVec 32 := 256#32
  let v34 : BitVec 32 := Scalar.muli v33 c256_i32
  v34
def k1_off1 (k1_t1 : Fin k1_t1_loop.trips) : Fin 3 → Nat :=
  let c0_21 : Index := 0#32
  let c0_i32_20 : BitVec 32 := 0#32
  let c0_i32 : BitVec 32 := 0#32
  let c1_i32 : BitVec 32 := 1#32
  let arg9 : BitVec 32 := Scf.iv c0_i32 c1_i32 k1_t1
  let c1_i32_19 : BitVec 32 := 1#32
  let v32 : BitVec 32 := Scalar.muli arg9 c1_i32_19
  let v33 : BitVec 32 := Scalar.addi c0_i32_20 v32
  let c256_i32 : BitVec 32 := 256#32
  let v34 : BitVec 32 := Scalar.muli v33 c256_i32
  let v35 : BitVec 32 := v34
  let v36 : Index := Scalar.indexCast v35
  let c0_22 : Index := 0#32
  ![0, v36.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x4096x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S64x512_S64x512_S128x512_d0 : Shape.Concatenates [S64x512, S64x512] S128x512 0
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  transposes_S64x1_S1x64_1_0 : S64x1.Transposes [1, 0] S1x64
  shapeCasts_S64_S1x64 : S64.ShapeCasts S1x64
  shapeCasts_S1_S1x1 : S1.ShapeCasts S1x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x64 : S4096x1.Broadcasts S4096x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  h_S1x256x128 : 0 < S1x256x128.numel
  shapeCasts_S1x256x128_S256x128 : S1x256x128.ShapeCasts S256x128
  slices_S256x128_o0_0_S256x64 : S256x128.Slices ![0, 0] S256x64
  slices_S256x128_o0_64_S256x64 : S256x128.Slices ![0, 64] S256x64
  reduces_S4096x256_S256 : S4096x256.Reduces [0] S256
  shapeCasts_S256_S1x256 : S256.ShapeCasts S1x256
  broadcasts_S1x256_S4096x256 : S1x256.Broadcasts S4096x256
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S1x4096x1 : S4096x1.ShapeCasts S1x4096x1
  shapeCasts_S4x4096x1_S4x4096 : S4x4096x1.ShapeCasts S4x4096
  dot_S4096x512_S128x512_S4096x128_1_1_0_0_n_n_wf : DotDims.WF S4096x512 S128x512 S4096x128 [1] [1] [0] [0] [] []
  dot_S4096x64_S256x64_S4096x256_1_1_0_0_n_n_wf : DotDims.WF S4096x64 S256x64 S4096x256 [1] [1] [0] [0] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .f32 = 32 ∨ (Rect.block (s := S4x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x4096x128.size a
  hwx0_3 : ∀ i : grid0.Coords, EltTy.bits .f32 = 32 ∨ (Rect.block (s := S4x4096x128) S1x4096x128.size (cc0_transform_3 i) (hinb0_3 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S1x256x128.size a ≤ S1x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x1.size a ≤ S4x4096x1.size a
  hwx1_0 : ∀ i : grid1.Coords, EltTy.bits .f32 = 32 ∨ (Rect.block (s := S4x4096x1) S1x4096x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S4x4096x128.size a
  hwx1_3 : ∀ i : grid1.Coords, EltTy.bits .f32 = 32 ∨ (Rect.block (s := S4x4096x128) S1x4096x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x4096x1.size a ≤ S4x4096x1.size a
  hwx1_6 : ∀ i : grid1.Coords, EltTy.bits .f32 = 32 ∨ (Rect.block (s := S4x4096x1) S1x4096x1.size (cc1_transform_6 i) (hinb1_6 i)).WholeWords (EltTy.packing .f32)

variable [Facts₀]

def dot_S4096x512_S128x512_S4096x128_1_1_0_0_n_n : DotDims S4096x512 S128x512 S4096x128 where
  lhsContracting := [1]
  rhsContracting := [1]
  lhsNonContracting := [0]
  rhsNonContracting := [0]
  lhsBatch := []
  rhsBatch := []
  wf := dot_S4096x512_S128x512_S4096x128_1_1_0_0_n_n_wf
def dot_S4096x64_S256x64_S4096x256_1_1_0_0_n_n : DotDims S4096x64 S256x64 S4096x256 where
  lhsContracting := [1]
  rhsContracting := [1]
  lhsNonContracting := [0]
  rhsNonContracting := [0]
  lhsBatch := []
  rhsBatch := []
  wf := dot_S4096x64_S256x64_S4096x256_1_1_0_0_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg1) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x4096x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x4096x1 : Shape := ⟨3, ![4, 4096, 1]⟩
abbrev S4x4096x512 : Shape := ⟨3, ![4, 4096, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S1 : Shape := ⟨1, ![1]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x1, .f32⟩
  | .hbm, ⟨1, _⟩ => ⟨S4x4096x512, .f32⟩
  | .hbm, ⟨2, _⟩ => ⟨S64x512, .f32⟩
  | .hbm, ⟨3, _⟩ => ⟨S64, .f32⟩
  | .hbm, ⟨4, _⟩ => ⟨S64x1, .f32⟩
  | .hbm, ⟨5, _⟩ => ⟨S64, .f32⟩
  | .hbm, ⟨6, _⟩ => ⟨S64x512, .f32⟩
  | .hbm, ⟨7, _⟩ => ⟨S1x64, .f32⟩
  | .hbm, ⟨8, _⟩ => ⟨S1, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S1x1x64, .f32⟩
  | .hbm, ⟨16, _⟩ => ⟨S4x4096x64, .f32⟩
  | .hbm, ⟨17, _⟩ => ⟨S4x4096x64, .f32⟩
  | .hbm, ⟨18, _⟩ => ⟨S4x4096x64, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x1x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x1x4096, .f32⟩
  | .hbm, ⟨35, _⟩ => ⟨S4x4096x4096, .f32⟩
  | .hbm, ⟨36, _⟩ => ⟨S4x4096x4096, .f32⟩
  | .hbm, ⟨37, _⟩ => ⟨S4x4096x64, .f32⟩
  | .hbm, ⟨38, _⟩ => ⟨S4x4096x64, .f32⟩
  | .hbm, ⟨39, _⟩ => ⟨S4x4096x64, .f32⟩
  | .hbm, ⟨40, _⟩ => ⟨S4x4096x64, .f32⟩
  | .hbm, ⟨41, _⟩ => ⟨S4x4096x1, .f32⟩
  | .hbm, ⟨42, _⟩ => ⟨S1x1x1, .f32⟩
  | .hbm, ⟨43, _⟩ => ⟨S4x4096x1, .f32⟩
  | .hbm, ⟨44, _⟩ => ⟨S4x4096x1, .f32⟩
  | .hbm, ⟨45, _⟩ => ⟨S4x4096, .f32⟩
  | _, _ => ⟨S4x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  shapeCasts_S4x4096x1_S4x4096 : S4x4096x1.ShapeCasts S4x4096
  dot_S4x4096x512_S64x512_S4x4096x64_2_1_01_0_n_n_wf : DotDims.WF S4x4096x512 S64x512 S4x4096x64 [2] [1] [0, 1] [0] [] []
  dot_S4x4096x1_S64x1_S4x4096x64_2_1_01_0_n_n_wf : DotDims.WF S4x4096x1 S64x1 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S1x64_S4x4096x1_2_1_01_0_n_n_wf : DotDims.WF S4x4096x64 S1x64 S4x4096x1 [2] [1] [0, 1] [0] [] []

variable [Facts₀]

def dot_S4x4096x512_S64x512_S4x4096x64_2_1_01_0_n_n : DotDims S4x4096x512 S64x512 S4x4096x64 where
  lhsContracting := [2]
  rhsContracting := [1]
  lhsNonContracting := [0, 1]
  rhsNonContracting := [0]
  lhsBatch := []
  rhsBatch := []
  wf := dot_S4x4096x512_S64x512_S4x4096x64_2_1_01_0_n_n_wf
def dot_S4x4096x1_S64x1_S4x4096x64_2_1_01_0_n_n : DotDims S4x4096x1 S64x1 S4x4096x64 where
  lhsContracting := [2]
  rhsContracting := [1]
  lhsNonContracting := [0, 1]
  rhsNonContracting := [0]
  lhsBatch := []
  rhsBatch := []
  wf := dot_S4x4096x1_S64x1_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S1x64_S4x4096x1_2_1_01_0_n_n : DotDims S4x4096x64 S1x64 S4x4096x1 where
  lhsContracting := [2]
  rhsContracting := [1]
  lhsNonContracting := [0, 1]
  rhsNonContracting := [0]
  lhsBatch := []
  rhsBatch := []
  wf := dot_S4x4096x64_S1x64_S4x4096x1_2_1_01_0_n_n_wf

class Facts : Prop extends Facts₀ where

variable [Facts]
-- ==== Proof.KRun.lean ====
/-
  The kernel program's run with its RESULT buffer named: every weakly fair execution terminates without a fault, the
  result array `[4, 4096]` ends at the contents the last host operation (a reshape) leaves from the attention call's
  output array, and the nine argument arrays end as launched. The contents at the end are the fold of the program's
  five segments (host operations, projection call, host operations, attention call, reshape) from the launch memory.
-/
import proofs.«104109_j58385785422224_2_alg».proof.Proof.Gen.KernelIdeal.Frame
import Idealize.ShloMosaic.Lib.Pipeline.Value
import Idealize.ShloMosaic.Lib.Tactic

set_option maxRecDepth 16384

noncomputable section

namespace Cert.KernelIdeal.AttnK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.AttnK

end
-- ==== Proof.KScratch.lean ====
/-
  The attention kernel's body on one batch element, as values.

  The body zeroes a [4096, 64] accumulator, then for each of the 16 key tiles of 256 rows adds that tile's
  contribution (the generated payload `k1_pay2`: softmax weights of all 4096 queries against the tile's 256 keys,
  times the tile's values) to what the accumulator holds, and finally projects `tanh` of the accumulator
  (`k1_pay3`). Here: the accumulator after `k` tiles as a recursion on `k` (`accAfter`), that the run's
  piece lists for the loop read back as that recursion (`read_pieces`), and the body's one store into the output
  block (`out_eq`).
-/
import proofs.«104109_j58385785422224_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AttnK

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `256 k … 256 k + 255` of the staged key/value block: what trip `k` of the loop loads. -/
abbrev tile (X3 : Vec F S1x4096x128 .f32) (k : Fin k1_t1_loop.trips) : Vec F S1x256x128 .f32 :=
  View.ld X3 (Rect.unit (k1_off1 k) S1x256x128.size (k1_off1_inb k))

/-- The accumulator after `k` trips, from the contents `g` it had when the loop was entered: each trip replaces it by
    the trip's payload of the query block, the two query-projection rows, the trip's tile and the accumulator so far. -/
def accFrom (v0 : Vec F S1x4096x1 .f32) (v2 v7 : Vec F S1x64 .f32) (X3 : Vec F S1x4096x128 .f32) (g : Vec F S4096x64 .f32) :
    ℕ → Vec F S4096x64 .f32
  | 0 => g
  | k + 1 => if h : k < k1_t1_loop.trips then k1_pay2 v0 v2 v7 (tile X3 ⟨k, h⟩) (accFrom v0 v2 v7 X3 g k)
      else accFrom v0 v2 v7 X3 g k

theorem accFrom_succ (v0 : Vec F S1x4096x1 .f32) (v2 v7 : Vec F S1x64 .f32) (X3 : Vec F S1x4096x128 .f32) (g : Vec F S4096x64 .f32)
    (k : Fin k1_t1_loop.trips) :
    accFrom v0 v2 v7 X3 g (k.val + 1) = k1_pay2 v0 v2 v7 (tile X3 k) (accFrom v0 v2 v7 X3 g k.val) := by
  rw [accFrom, dif_pos k.isLt]

/-- The pieces the loop's trips before `k` wrote, read back through the accumulator's view over the contents at loop
    entry, are the recursion: every trip is ONE store of the whole accumulator, whose payload reads the accumulator the
    earlier trips left. -/
theorem read_pieces (c : Dev nD) (i : grid1.Coords) (a1 : Memref sig .tc .vmem S1x4096x1 .f32) (h1 : a1.IsWhole) (a2 : Memref sig .tc .vmem S1x64 .f32) (h2 : a2.IsWhole) (a3 : Memref sig .tc .vmem S1x64 .f32) (h3 : a3.IsWhole) (a4 : Memref sig .tc .vmem S1x4096x128 .f32) (h4 : a4.IsWhole) (a5 : Memref sig .tc .vmem S1x64 .f32) (h5 : a5.IsWhole) (a6 : Memref sig .tc .vmem S1x1 .f32) (h6 : a6.IsWhole) (a7 : Memref sig .tc .vmem S1x4096x1 .f32) (h7 : a7.IsWhole) (a8 : Memref sig .tc .vmem S4096x64 .f32) (h8 : a8.IsWhole)
    (v0 : Vec F S1x4096x1 .f32) (v2 v7 : Vec F S1x64 .f32) (X4 : BufTy.Contents (Elt F) a4.view.ty)
    (G : BufTy.Contents (Elt F) a8.view.ty) : ∀ k : ℕ, k ≤ k1_t1_loop.trips →
    a8.view.read (Elt F) (a8.view.writes (Elt F) G
        (pb_k1_t1 (F := F) Variants.none c none i a1 h1 a2 h2 a3 h3 a4 h4 a5 h5 a6 h6 a7 h7 a8 h8 v0 v2 v7 X4 G k))
      = accFrom v0 v2 v7 (a4.view.read (Elt F) X4) (a8.view.read (Elt F) G) k
  | 0, _ => by rw [pb_k1_t1, View.writes_nil]; rfl
  | k + 1, hk => by
    have hk' : k < k1_t1_loop.trips := hk
    have ih := read_pieces c i a1 h1 a2 h2 a3 h3 a4 h4 a5 h5 a6 h6 a7 h7 a8 h8 v0 v2 v7 X4 G k (Nat.le_of_lt hk')
    rw [show k + 1 = (⟨k, hk'⟩ : Fin k1_t1_loop.trips).val + 1 from rfl, pb_k1_t1_succ, View.writes_append,
      accFrom_succ]
    unfold tripL_k1_t1 trip_k1_t1
    dsimp only
    rw [View.read_writes_eq_canon _ _ _ (fun y => ⟨_, List.mem_singleton_self _, View.mem_set_unit_zero hz2 Gen.inb_S4096x64_S4096x64_0_0 y⟩),
      View.canon_unit_zero hz2]
    simp only [View.readAt_eq_ld, View.ld_unit_zero (S := S4096x64) hz2]
    rw [ih]

/-- WHAT THE BODY LEAVES in the output block: the projection payload of the accumulator after all the loop's trips
    (started from the zero fill), of the projection row and of the projection bias — its one store covers the block. -/
theorem out_eq (c : Dev nD) (i : grid1.Coords) (a1 : Memref sig .tc .vmem S1x4096x1 .f32) (h1 : a1.IsWhole) (a2 : Memref sig .tc .vmem S1x64 .f32) (h2 : a2.IsWhole) (a3 : Memref sig .tc .vmem S1x64 .f32) (h3 : a3.IsWhole) (a4 : Memref sig .tc .vmem S1x4096x128 .f32) (h4 : a4.IsWhole) (a5 : Memref sig .tc .vmem S1x64 .f32) (h5 : a5.IsWhole) (a6 : Memref sig .tc .vmem S1x1 .f32) (h6 : a6.IsWhole) (a7 : Memref sig .tc .vmem S1x4096x1 .f32) (h7 : a7.IsWhole) (a8 : Memref sig .tc .vmem S4096x64 .f32) (h8 : a8.IsWhole) (x0 : Vec F S1x4096x1 .f32) (x1 : Vec F S1x64 .f32) (x2 : Vec F S1x64 .f32) (x3 : Vec F S1x4096x128 .f32) (x4 : Vec F S1x64 .f32) (x5 : Vec F S1x1 .f32) :
    out1_A_6 c i a1 h1 a2 h2 a3 h3 a4 h4 a5 h5 a6 h6 a7 h7 a8 h8 x0 x1 x2 x3 x4 x5
      = k1_pay3 (accFrom x0 x1 x2 x3 (k1_pay1 (F := F)) k1_t1_loop.trips) x4 x5 := by
  unfold out1_A_6
  rw [View.read_writes_eq_canon _ _ _ (cover1_A_6 c i a1 h1 a2 h2 a3 h3 a4 h4 a5 h5 a6 h6 a7 h7 a8 h8 x0 x1 x2 x3 x4 x5)]
  unfold kernelRun1_A
  dsimp only
  sl_unfold_words
  rw [View.canon_unit_zero hz3]
  simp only [View.readAt_eq_ld, h1.read_unread, h2.read_unread, h3.read_unread, h5.read_unread, h6.read_unread,
    View.ld_unit_zero (S := S1x4096x1) hz3, View.ld_unit_zero (S := S1x64) hz2, View.ld_unit_zero (S := S1x1) hz2,
    View.ld_unit_zero (S := S4096x64) hz2]
  rw [View.writes_append, read_pieces c i a1 h1 a2 h2 a3 h3 a4 h4 a5 h5 a6 h6 a7 h7 a8 h8 _ _ _ _ _ _ (le_refl _), h4.read_unread,
    View.read_writes_eq_canon _ _ _ (fun y => ⟨_, List.mem_singleton_self _, View.mem_set_unit_zero hz2 Gen.inb_S4096x64_S4096x64_0_0 y⟩),
    View.canon_unit_zero hz2]

end Cert.KernelIdeal.AttnK

end
-- ==== Proof.KBlocks.lean ====
/-
  From blocks to arrays, for both calls. Each call's grid is the four batch elements; at point `b` every batched
  operand's block is batch element `b` of its array (rows and lanes whole) and every unbatched operand's block is its
  whole array. So the projection call's output array holds, at `(b, s, j)`, the body's payload of batch element `b` at
  `(0, s, j)`; and the attention call's output array, at `(b, t, 0)`, the body's payload of batch element `b` at `(0, t, 0)`.
-/
import proofs.«104109_j58385785422224_2_alg».proof.Proof.Gen.KernelIdeal.Frame
import proofs.«104109_j58385785422224_2_alg».proof.Proof.KScratch
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.AttnK

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

variable (V : (c : Dev nD) → (b : Ref sig .tc) → Buf (Elt F) ((c : Thread nD τ).loc b))

/-! ## The projection call -/

/-- The grid point of batch element `n`. -/
def pt0 (n : ℕ) (h : n < 4) : Fin cfg0.N := ⟨n, by rw [show cfg0.N = 4 from N_0]; exact h⟩

/-- The printed index maps over the grid: batched windows move with the point on axis 0, the others stay. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Batch element `t` of the token embeddings. -/
theorem blk0_0 (c : Dev nD) (t : Fin cfg0.N) (s : Fin 4096) (e : Fin 512) :
    iblk0 V c 0 t (ix3 (0 : Fin 1) s e) = V c main_arg1 (ix3 (⟨t.val, Nat.lt_of_lt_of_eq t.isLt N_0⟩ : Fin 4) s e) := by
  obtain ⟨e0, e1, e2, -⟩ := idx0 t
  unfold iblk0
  rw [View.read_apply]
  show V c main_arg1 _ = V c main_arg1 _
  refine congrArg _ (funext fun a => Fin.ext ?_)
  match a with
  | ⟨0, _⟩ => show win0_0.index t (0 : Fin 3) * 1 + 1 * 0 = t.val; rw [e0]; omega
  | ⟨1, _⟩ => show win0_0.index t (1 : Fin 3) * 4096 + 1 * s.val = s.val; rw [e1]; omega
  | ⟨2, _⟩ => show win0_0.index t (2 : Fin 3) * 512 + 1 * e.val = e.val; rw [e2]; omega

/-- The stacked weights, whole. -/
theorem blk0_1 (c : Dev nD) (t : Fin cfg0.N) (j : Fin 128) (e : Fin 512) :
    iblk0 V c 1 t (ix2 j e) = V c main_v0 (ix2 j e) := by
  obtain ⟨-, -, -, e0, e1, -⟩ := idx0 t
  unfold iblk0
  rw [View.read_apply]
  show V c main_v0 _ = V c main_v0 _
  refine congrArg _ (funext fun a => Fin.ext ?_)
  match a with
  | ⟨0, _⟩ => show win0_1.index t (0 : Fin 2) * 128 + 1 * j.val = j.val; rw [e0]; omega
  | ⟨1, _⟩ => show win0_1.index t (1 : Fin 2) * 512 + 1 * e.val = e.val; rw [e1]; omega

/-- The padded bias row, whole. -/
theorem blk0_2 (c : Dev nD) (t : Fin cfg0.N) (j : Fin 128) :
    iblk0 V c 2 t (ix2 (0 : Fin 1) j) = V c main_v3 (ix2 (0 : Fin 1) j) := by
  obtain ⟨-, -, -, -, -, e0, e1, -⟩ := idx0 t
  unfold iblk0
  rw [View.read_apply]
  show V c main_v3 _ = V c main_v3 _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * j.val = j.val; rw [e1]; omega

/-- The key/value array the projection call leaves: at `(b, s, j)` the body's payload of batch element `b`'s blocks. -/
def kvArr (c : Dev nD) : S4x4096x128.Idx → Elt F .f32 := fun i =>
  k0_pay1 (iblk0 V c 0 (pt0 (i 0).val (i 0).isLt)) (iblk0 V c 1 (pt0 (i 0).val (i 0).isLt)) (iblk0 V c 2 (pt0 (i 0).val (i 0).isLt))
    (ix3 (0 : Fin 1) (i 1) (i 2))

theorem flushed0 (c : Dev nD) (t : Fin cfg0.N) :
    (dat0 V c).flushed 3 t = ((cfg0.win 3).blk t).view.read (Elt F) (kvArr V c) := by
  obtain ⟨-, -, -, -, -, -, -, e0, e1, e2⟩ := idx0 t
  show (cfg0.win 3).cut (grid0.coords t) ((dat0 V c).after 3 t) = _
  rw [after0_3]
  unfold out0_3
  rw [View.canon_unit_zero hz3]
  simp only [View.ld_unit_zero (S := S1x4096x512) hz3, View.ld_unit_zero (S := S128x512) hz2, View.ld_unit_zero (S := S1x128) hz2]
  funext y
  show k0_pay1 (iblk0 V c 0 t) (iblk0 V c 1 t) (iblk0 V c 2 t) y = kvArr V c (((cfg0.win 3).blk t).view.emb y)
  unfold kvArr
  have ht : pt0 ((((cfg0.win 3).blk t).view.emb y) 0).val ((((cfg0.win 3).blk t).view.emb y) 0).isLt = t := Fin.ext (by
    show win0_3.index t (0 : Fin 3) * 1 + 1 * (y 0).val = t.val
    have hy : (y 0).val < 1 := (y 0).isLt
    rw [e0]; omega)
  have hy : (ix3 (0 : Fin 1) ((((cfg0.win 3).blk t).view.emb y) 1) ((((cfg0.win 3).blk t).view.emb y) 2) : S1x4096x128.Idx) = y :=
    funext fun a => Fin.ext (by
      match a with
      | ⟨0, _⟩ => show 0 = (y 0).val; have hy : (y 0).val < 1 := (y 0).isLt; omega
      | ⟨1, _⟩ => show win0_3.index t (1 : Fin 3) * 4096 + 1 * (y 1).val = (y 1).val; rw [e1]; omega
      | ⟨2, _⟩ => show win0_3.index t (2 : Fin 3) * 128 + 1 * (y 2).val = (y 2).val; rw [e2]; omega)
  rw [ht, hy]

theorem final0 (c : Dev nD) : (dat0 V c).arrAt 3 cfg0.N = kvArr V c :=
  (dat0 V c).arrAt_eq_of_cover 3 (kvArr V c) (fun t _ => flushed0 V c t) fun i => by
    refine ⟨pt0 (i 0).val (i 0).isLt, flush0_3 _, ?_⟩
    obtain ⟨-, -, -, -, -, -, -, e0, e1, e2⟩ := idx0 (pt0 (i 0).val (i 0).isLt)
    show i ∈ ((View.whole main_v4).slice (win0_3.rect (pt0 (i 0).val (i 0).isLt))).set
    rw [View.set_slice_whole, Rect.mem_set_unit]
    intro a
    have h1 : (i 1).val < 4096 := (i 1).isLt
    have h2 : (i 2).val < 128 := (i 2).isLt
    match a with
    | ⟨0, _⟩ => show win0_3.index (pt0 (i 0).val (i 0).isLt) (0 : Fin 3) * 1 ≤ (i 0).val ∧ (i 0).val < win0_3.index (pt0 (i 0).val (i 0).isLt) (0 : Fin 3) * 1 + 1
                rw [e0]; show (i 0).val * 1 ≤ (i 0).val ∧ (i 0).val < (i 0).val * 1 + 1; omega
    | ⟨1, _⟩ => show win0_3.index (pt0 (i 0).val (i 0).isLt) (1 : Fin 3) * 4096 ≤ (i 1).val ∧ (i 1).val < win0_3.index (pt0 (i 0).val (i 0).isLt) (1 : Fin 3) * 4096 + 4096
                rw [e1]; omega
    | ⟨2, _⟩ => show win0_3.index (pt0 (i 0).val (i 0).isLt) (2 : Fin 3) * 128 ≤ (i 2).val ∧ (i 2).val < win0_3.index (pt0 (i 0).val (i 0).isLt) (2 : Fin 3) * 128 + 128
                rw [e2]; omega

/-! ## The attention call -/

/-- The grid point of batch element `n`. -/
def pt1 (n : ℕ) (h : n < 4) : Fin cfg1.N := ⟨n, by rw [show cfg1.N = 4 from N_1]; exact h⟩

/-- The printed index maps over the grid: batched windows move with the point on axis 0, the others stay. -/
theorem idx1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- Batch element `t` of the query input. -/
theorem blk1_0 (c : Dev nD) (t : Fin cfg1.N) (q : Fin 4096) (u : Fin 1) :
    iblk1 V c 0 t (ix3 (0 : Fin 1) q u) = V c main_arg0 (ix3 (⟨t.val, Nat.lt_of_lt_of_eq t.isLt N_1⟩ : Fin 4) q u) := by
  obtain ⟨e0, e1, e2, -⟩ := idx1 t
  unfold iblk1
  rw [View.read_apply]
  show V c main_arg0 _ = V c main_arg0 _
  refine congrArg _ (funext fun a => Fin.ext ?_)
  match a with
  | ⟨0, _⟩ => show win1_0.index t (0 : Fin 3) * 1 + 1 * 0 = t.val; rw [e0]; omega
  | ⟨1, _⟩ => show win1_0.index t (1 : Fin 3) * 4096 + 1 * q.val = q.val; rw [e1]; omega
  | ⟨2, _⟩ => show win1_0.index t (2 : Fin 3) * 1 + 1 * u.val = u.val; rw [e2]; omega

/-- The query weight row, whole. -/
theorem blk1_1 (c : Dev nD) (t : Fin cfg1.N) (h : Fin 64) :
    iblk1 V c 1 t (ix2 (0 : Fin 1) h) = V c main_v5 (ix2 (0 : Fin 1) h) := by
  obtain ⟨-, -, -, e0, e1, -⟩ := idx1 t
  unfold iblk1
  rw [View.read_apply]
  show V c main_v5 _ = V c main_v5 _
  refine congrArg _ (funext fun a => Fin.ext ?_)
  match a with
  | ⟨0, _⟩ => show win1_1.index t (0 : Fin 2) * 1 + 1 * 0 = 0; rw [e0]
  | ⟨1, _⟩ => show win1_1.index t (1 : Fin 2) * 64 + 1 * h.val = h.val; rw [e1]; omega

/-- The query bias row, whole. -/
theorem blk1_2 (c : Dev nD) (t : Fin cfg1.N) (h : Fin 64) :
    iblk1 V c 2 t (ix2 (0 : Fin 1) h) = V c main_v6 (ix2 (0 : Fin 1) h) := by
  obtain ⟨-, -, -, -, -, e0, e1, -⟩ := idx1 t
  unfold iblk1
  rw [View.read_apply]
  show V c main_v6 _ = V c main_v6 _
  refine congrArg _ (funext fun a => Fin.ext ?_)
  match a with
  | ⟨0, _⟩ => show win1_2.index t (0 : Fin 2) * 1 + 1 * 0 = 0; rw [e0]
  | ⟨1, _⟩ => show win1_2.index t (1 : Fin 2) * 64 + 1 * h.val = h.val; rw [e1]; omega

/-- Batch element `t` of the key/value array. -/
theorem blk1_3 (c : Dev nD) (t : Fin cfg1.N) (s : Fin 4096) (j : Fin 128) :
    iblk1 V c 3 t (ix3 (0 : Fin 1) s j) = V c main_v4 (ix3 (⟨t.val, Nat.lt_of_lt_of_eq t.isLt N_1⟩ : Fin 4) s j) := by
  obtain ⟨-, -, -, -, -, -, -, e0, e1, e2, -⟩ := idx1 t
  unfold iblk1
  rw [View.read_apply]
  show V c main_v4 _ = V c main_v4 _
  refine congrArg _ (funext fun a => Fin.ext ?_)
  match a with
  | ⟨0, _⟩ => show win1_3.index t (0 : Fin 3) * 1 + 1 * 0 = t.val; rw [e0]; omega
  | ⟨1, _⟩ => show win1_3.index t (1 : Fin 3) * 4096 + 1 * s.val = s.val; rw [e1]; omega
  | ⟨2, _⟩ => show win1_3.index t (2 : Fin 3) * 128 + 1 * j.val = j.val; rw [e2]; omega

/-- The projection weight row, whole. -/
theorem blk1_4 (c : Dev nD) (t : Fin cfg1.N) (h : Fin 64) :
    iblk1 V c 4 t (ix2 (0 : Fin 1) h) = V c main_arg7 (ix2 (0 : Fin 1) h) := by
  obtain ⟨-, -, -, -, -, -, -, -, -, -, e0, e1, -⟩ := idx1 t
  unfold iblk1
  rw [View.read_apply]
  show V c main_arg7 _ = V c main_arg7 _
  refine congrArg _ (funext fun a => Fin.ext ?_)
  match a with
  | ⟨0, _⟩ => show win1_4.index t (0 : Fin 2) * 1 + 1 * 0 = 0; rw [e0]
  | ⟨1, _⟩ => show win1_4.index t (1 : Fin 2) * 64 + 1 * h.val = h.val; rw [e1]; omega

/-- The projection bias, whole. -/
theorem blk1_5 (c : Dev nD) (t : Fin cfg1.N) :
    iblk1 V c 5 t (ix2 (0 : Fin 1) (0 : Fin 1)) = V c main_v7 (ix2 (0 : Fin 1) (0 : Fin 1)) := by
  obtain ⟨-, -, -, -, -, -, -, -, -, -, -, -, e0, e1, -⟩ := idx1 t
  unfold iblk1
  rw [View.read_apply]
  show V c main_v7 _ = V c main_v7 _
  refine congrArg _ (funext fun a => Fin.ext ?_)
  match a with
  | ⟨0, _⟩ => show win1_5.index t (0 : Fin 2) * 1 + 1 * 0 = 0; rw [e0]
  | ⟨1, _⟩ => show win1_5.index t (1 : Fin 2) * 1 + 1 * 0 = 0; rw [e1]

/-- What the body leaves in the output block at point `t`, over the point's input blocks. -/
def bodyOut (c : Dev nD) (t : Fin cfg1.N) : Vec F S1x4096x1 .f32 :=
  k1_pay3 (accFrom (iblk1 V c 0 t) (iblk1 V c 1 t) (iblk1 V c 2 t) (iblk1 V c 3 t) (k1_pay1 (F := F)) k1_t1_loop.trips)
    (iblk1 V c 4 t) (iblk1 V c 5 t)

theorem outsAt1_eq (c : Dev nD) (t : Fin cfg1.N) : outsAt1 V c t = bodyOut V c t := by
  unfold outsAt1 bodyOut
  exact out_eq c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) scM1_0 (Memref.isWhole_whole _) (iblk1 V c 0 t) (iblk1 V c 1 t) (iblk1 V c 2 t)
    (iblk1 V c 3 t) (iblk1 V c 4 t) (iblk1 V c 5 t)

/-- The array the attention call leaves: at `(b, t, u)` the body's output block of batch element `b` at `(0, t, u)`. -/
def attnArr (c : Dev nD) : S4x4096x1.Idx → Elt F .f32 := fun i =>
  bodyOut V c (pt1 (i 0).val (i 0).isLt) (ix3 (0 : Fin 1) (i 1) (i 2))

theorem flushed1 (c : Dev nD) (t : Fin cfg1.N) :
    (dat1 V c).flushed 6 t = ((cfg1.win 6).blk t).view.read (Elt F) (attnArr V c) := by
  obtain ⟨-, -, -, -, -, -, -, -, -, -, -, -, -, -, e0, e1, e2⟩ := idx1 t
  show (cfg1.win 6).cut (grid1.coords t) ((dat1 V c).after 6 t) = _
  rw [after1_6, outsAt1_eq]
  funext y
  show bodyOut V c t y = attnArr V c (((cfg1.win 6).blk t).view.emb y)
  unfold attnArr
  have ht : pt1 ((((cfg1.win 6).blk t).view.emb y) 0).val ((((cfg1.win 6).blk t).view.emb y) 0).isLt = t := Fin.ext (by
    show win1_6.index t (0 : Fin 3) * 1 + 1 * (y 0).val = t.val
    have hy : (y 0).val < 1 := (y 0).isLt
    rw [e0]; omega)
  have hy : (ix3 (0 : Fin 1) ((((cfg1.win 6).blk t).view.emb y) 1) ((((cfg1.win 6).blk t).view.emb y) 2) : S1x4096x1.Idx) = y :=
    funext fun a => Fin.ext (by
      match a with
      | ⟨0, _⟩ => show 0 = (y 0).val; have hy : (y 0).val < 1 := (y 0).isLt; omega
      | ⟨1, _⟩ => show win1_6.index t (1 : Fin 3) * 4096 + 1 * (y 1).val = (y 1).val; rw [e1]; omega
      | ⟨2, _⟩ => show win1_6.index t (2 : Fin 3) * 1 + 1 * (y 2).val = (y 2).val; rw [e2]; omega)
  rw [ht, hy]

theorem final1 (c : Dev nD) : (dat1 V c).arrAt 6 cfg1.N = attnArr V c :=
  (dat1 V c).arrAt_eq_of_cover 6 (attnArr V c) (fun t _ => flushed1 V c t) fun i => by
    refine ⟨pt1 (i 0).val (i 0).isLt, flush1_6 _, ?_⟩
    obtain ⟨-, -, -, -, -, -, -, -, -, -, -, -, -, -, e0, e1, e2⟩ := idx1 (pt1 (i 0).val (i 0).isLt)
    show i ∈ ((View.whole main_v8).slice (win1_6.rect (pt1 (i 0).val (i 0).isLt))).set
    rw [View.set_slice_whole, Rect.mem_set_unit]
    intro a
    have h1 : (i 1).val < 4096 := (i 1).isLt
    have h2 : (i 2).val < 1 := (i 2).isLt
    match a with
    | ⟨0, _⟩ => show win1_6.index (pt1 (i 0).val (i 0).isLt) (0 : Fin 3) * 1 ≤ (i 0).val ∧ (i 0).val < win1_6.index (pt1 (i 0).val (i 0).isLt) (0 : Fin 3) * 1 + 1
                rw [e0]; show (i 0).val * 1 ≤ (i 0).val ∧ (i 0).val < (i 0).val * 1 + 1; omega
    | ⟨1, _⟩ => show win1_6.index (pt1 (i 0).val (i 0).isLt) (1 : Fin 3) * 4096 ≤ (i 1).val ∧ (i 1).val < win1_6.index (pt1 (i 0).val (i 0).isLt) (1 : Fin 3) * 4096 + 4096
                rw [e1]; omega
    | ⟨2, _⟩ => show win1_6.index (pt1 (i 0).val (i 0).isLt) (2 : Fin 3) * 1 ≤ (i 2).val ∧ (i 2).val < win1_6.index (pt1 (i 0).val (i 0).isLt) (2 : Fin 3) * 1 + 1
                rw [e2]; omega

end Cert.KernelIdeal.AttnK

end
-- ==== Proof.KFold.lean ====
/-
  The program's buffers at each boundary between its five segments, read at the references the two calls take:
  what the host operations before the projection call leave (the two weight matrices stacked, the key bias padded with
  64 zeros and laid out as a row), what the ones before the attention call leave (the query weight column transposed to
  a row, the query bias and the projection bias laid out as rows), which buffers a segment does not touch, and the
  result buffer as the reshape of the attention call's output array.
-/
import proofs.«104109_j58385785422224_2_alg».proof.Proof.Gen.KernelIdeal.Frame
import proofs.«104109_j58385785422224_2_alg».proof.Proof.KScratch
import Idealize.ShloMosaic.Lib.Pipeline.Value
import Idealize.ShloMosaic.Lib.StableHlo.Run
import Idealize.ShloMosaic.Lib.Tactic

set_option maxRecDepth 16384

noncomputable section

namespace Cert.KernelIdeal.AttnK

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- No operation of a stretch writes the reference: its contents pass through the stretch. -/
macro "not_written" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the projection call -/

theorem V1_arg1 (c : Dev nD) : V1 m ρ c main_arg1 = m ((c : Thread nD τ).loc main_arg1) := by
  show StableHlo.after hostOps0 (W0 m ρ c) (Proc.devRef .tc main_arg1) = _
  not_written

/-- The stacked weights: key weights on rows 0–63, value weights on rows 64–127. -/
theorem V1_v0 (c : Dev nD) : (V1 m ρ c main_v0 : S128x512.Idx → Elt F .f32)
    = concatenate S128x512 0 [⟨S64x512, m ((c : Thread nD τ).loc main_arg2)⟩, ⟨S64x512, m ((c : Thread nD τ).loc main_arg6)⟩] concatenates_S64x512_S64x512_S128x512_d0 := by
  show StableHlo.after hostOps0 (W0 m ρ c) (Proc.devRef .tc main_v0) = _
  after_results

/-- The padded bias row: the key bias on lanes 0–63, zeros on lanes 64–127. -/
theorem V1_v3 (c : Dev nD) : (V1 m ρ c main_v3 : S1x128.Idx → Elt F .f32)
    = shapeCast S1x128 (concatenate S128 0 [⟨S64, m ((c : Thread nD τ).loc main_arg3)⟩,
        ⟨S64, broadcastInDim S64 ![] bcast_S_S64 (constant (F := F) S_ .f32 0x00000000#32)⟩] concatenates_S64_S64_S128_d0) shapeCasts_S128_S1x128 := by
  show StableHlo.after hostOps0 (W0 m ρ c) (Proc.devRef .tc main_v3) = _
  after_results; rfl

/-! ## Before the attention call -/

theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

theorem V3_arg0 (c : Dev nD) : V3 m ρ c main_arg0 = m ((c : Thread nD τ).loc main_arg0) := by
  show StableHlo.after hostOps1 (W2 m ρ c) (Proc.devRef .tc main_arg0) = _
  refine Eq.trans (by not_written) (W2_arg m ρ c main_arg0 (by decide) (by not_written))

theorem V3_arg7 (c : Dev nD) : V3 m ρ c main_arg7 = m ((c : Thread nD τ).loc main_arg7) := by
  show StableHlo.after hostOps1 (W2 m ρ c) (Proc.devRef .tc main_arg7) = _
  refine Eq.trans (by not_written) (W2_arg m ρ c main_arg7 (by decide) (by not_written))

/-- The query weight as a row. -/
theorem V3_v5 (c : Dev nD) : (V3 m ρ c main_v5 : S1x64.Idx → Elt F .f32)
    = transpose S1x64 [1, 0] (m ((c : Thread nD τ).loc main_arg4)) transposes_S64x1_S1x64_1_0 := by
  show StableHlo.after hostOps1 (W2 m ρ c) (Proc.devRef .tc main_v5) = _
  after_results
  rw [W2_arg m ρ c main_arg4 (by decide) (by not_written)]

/-- The query bias as a row. -/
theorem V3_v6 (c : Dev nD) : (V3 m ρ c main_v6 : S1x64.Idx → Elt F .f32)
    = shapeCast S1x64 (m ((c : Thread nD τ).loc main_arg5)) shapeCasts_S64_S1x64 := by
  show StableHlo.after hostOps1 (W2 m ρ c) (Proc.devRef .tc main_v6) = _
  after_results
  rw [W2_arg m ρ c main_arg5 (by decide) (by not_written)]
  rfl

/-- The projection bias as a one-by-one array. -/
theorem V3_v7 (c : Dev nD) : (V3 m ρ c main_v7 : S1x1.Idx → Elt F .f32)
    = shapeCast S1x1 (m ((c : Thread nD τ).loc main_arg8)) shapeCasts_S1_S1x1 := by
  show StableHlo.after hostOps1 (W2 m ρ c) (Proc.devRef .tc main_v7) = _
  after_results
  rw [W2_arg m ρ c main_arg8 (by decide) (by not_written)]
  rfl

/-- The key/value array the attention call reads is what the projection call's write-backs left. -/
theorem V3_v4 (c : Dev nD) : V3 m ρ c main_v4 = (dat0 (V1 m ρ) c).arrAt 3 cfg0.N := by
  show StableHlo.after hostOps1 (W2 m ρ c) (Proc.devRef .tc main_v4) = _
  refine Eq.trans (by not_written) (W2_arr m ρ c 3)

/-! ## The result -/

/-- The result is the attention call's output array `[4, 4096, 1]` reshaped to `[4, 4096]`. -/
theorem W5_v9 (c : Dev nD) : (W5 m ρ c (Proc.devRef .tc main_v9) : S4x4096.Idx → Elt F .f32)
    = shapeCast S4x4096 ((dat1 (V3 m ρ) c).arrAt 6 cfg1.N) shapeCasts_S4x4096x1_S4x4096 := by
  show StableHlo.after hostOps2 (W4 m ρ c) (Proc.devRef .tc main_v9) = _
  after_results
  rw [W4_arr m ρ c 6]
  rfl

end Cert.KernelIdeal.AttnK

end
-- ==== Proof.KInputs.lean ====
/-
  The blocks both calls read at the grid point of batch element `b`, as entries of the nine argument arrays:
  the attention call's six input blocks (the query input's batch element, the query weight column read as a row, the
  query bias, the key/value array's batch element, the projection weight row, the projection bias) and the projection
  call's three (the token embeddings' batch element; the stacked weights, whose rows 0–63 are the key weights and rows
  64–127 the value weights; the padded bias row, whose lanes 0–63 are the key bias and lanes 64–127 zero).
-/
import proofs.«104109_j58385785422224_2_alg».proof.Proof.KBlocks
import proofs.«104109_j58385785422224_2_alg».proof.Proof.KFold
import Idealize.ShloMosaic.Lib.ValueLayout

set_option maxRecDepth 16384

noncomputable section

namespace Cert.KernelIdeal.AttnK

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The attention call's blocks -/

theorem in1_x (c : Dev nD) (b : Fin 4) (q : Fin 4096) (u : Fin 1) :
    iblk1 (V3 m ρ) c 0 (pt1 b.val b.isLt) (ix3 (0 : Fin 1) q u) = m ((c : Thread nD τ).loc main_arg0) (ix3 b q u) :=
  (blk1_0 (V3 m ρ) c (pt1 b.val b.isLt) q u).trans (congrFun (V3_arg0 m ρ c) _)

theorem in1_qw (c : Dev nD) (b : Fin 4) (h : Fin 64) :
    iblk1 (V3 m ρ) c 1 (pt1 b.val b.isLt) (ix2 (0 : Fin 1) h) = m ((c : Thread nD τ).loc main_arg4) (ix2 h (0 : Fin 1)) :=
  (blk1_1 (V3 m ρ) c (pt1 b.val b.isLt) h).trans ((congrFun (V3_v5 m ρ c) _).trans (transpose_ix2_apply _ _ (0 : Fin 1) h))

theorem in1_qb (c : Dev nD) (b : Fin 4) (h : Fin 64) :
    iblk1 (V3 m ρ) c 2 (pt1 b.val b.isLt) (ix2 (0 : Fin 1) h) = m ((c : Thread nD τ).loc main_arg5) (ix1 h) :=
  (blk1_2 (V3 m ρ) c (pt1 b.val b.isLt) h).trans ((congrFun (V3_v6 m ρ c) _).trans (shapeCast_a_1a_apply _ _ (0 : Fin 1) h))

theorem in1_kv (c : Dev nD) (b : Fin 4) (s : Fin 4096) (j : Fin 128) :
    iblk1 (V3 m ρ) c 3 (pt1 b.val b.isLt) (ix3 (0 : Fin 1) s j) = kvArr (V1 m ρ) c (ix3 b s j) :=
  (blk1_3 (V3 m ρ) c (pt1 b.val b.isLt) s j).trans (congrFun ((V3_v4 m ρ c).trans (final0 (V1 m ρ) c)) _)

theorem in1_pw (c : Dev nD) (b : Fin 4) (h : Fin 64) :
    iblk1 (V3 m ρ) c 4 (pt1 b.val b.isLt) (ix2 (0 : Fin 1) h) = m ((c : Thread nD τ).loc main_arg7) (ix2 (0 : Fin 1) h) :=
  (blk1_4 (V3 m ρ) c (pt1 b.val b.isLt) h).trans (congrFun (V3_arg7 m ρ c) _)

theorem in1_pb (c : Dev nD) (b : Fin 4) :
    iblk1 (V3 m ρ) c 5 (pt1 b.val b.isLt) (ix2 (0 : Fin 1) (0 : Fin 1)) = m ((c : Thread nD τ).loc main_arg8) (ix1 (0 : Fin 1)) :=
  (blk1_5 (V3 m ρ) c (pt1 b.val b.isLt)).trans ((congrFun (V3_v7 m ρ c) _).trans (shapeCast_a_1a_apply _ _ (0 : Fin 1) (0 : Fin 1)))

/-! ## The projection call's blocks -/

theorem in0_tok (c : Dev nD) (b : Fin 4) (s : Fin 4096) (e : Fin 512) :
    iblk0 (V1 m ρ) c 0 (pt0 b.val b.isLt) (ix3 (0 : Fin 1) s e) = m ((c : Thread nD τ).loc main_arg1) (ix3 b s e) :=
  (blk0_0 (V1 m ρ) c (pt0 b.val b.isLt) s e).trans (congrFun (V1_arg1 m ρ c) _)

/-- Rows 0–63 of the stacked weights are the key weights. -/
theorem in0_w_key (c : Dev nD) (b : Fin 4) (h : Fin 64) (e : Fin 512) :
    iblk0 (V1 m ρ) c 1 (pt0 b.val b.isLt) (ix2 (⟨h.val, by omega⟩ : Fin 128) e) = m ((c : Thread nD τ).loc main_arg2) (ix2 h e) := by
  refine (blk0_1 (V1 m ρ) c (pt0 b.val b.isLt) _ e).trans ((congrFun (V1_v0 m ρ c) _).trans ?_)
  refine concatenate_pair_apply_left (t := S128x512) (s₁ := S64x512) (s₂ := S64x512) (0 : Fin 2) _ _ _ _ rfl (ix2 h e) fun a => ?_
  match a with
  | ⟨0, _⟩ => rfl
  | ⟨1, _⟩ => rfl

/-- Rows 64–127 of the stacked weights are the value weights. -/
theorem in0_w_val (c : Dev nD) (b : Fin 4) (h : Fin 64) (e : Fin 512) :
    iblk0 (V1 m ρ) c 1 (pt0 b.val b.isLt) (ix2 (⟨64 + h.val, by omega⟩ : Fin 128) e) = m ((c : Thread nD τ).loc main_arg6) (ix2 h e) := by
  refine (blk0_1 (V1 m ρ) c (pt0 b.val b.isLt) _ e).trans ((congrFun (V1_v0 m ρ c) _).trans ?_)
  refine concatenate_pair_apply_right (t := S128x512) (s₁ := S64x512) (s₂ := S64x512) (0 : Fin 2) _ _ _ _ rfl rfl (ix2 h e) (fun a ha => ?_) ?_
  · match a with
    | ⟨0, _⟩ => exact absurd rfl ha
    | ⟨1, _⟩ => rfl
  · show h.val + 64 = 64 + h.val
    omega

/-- Lanes 0–63 of the padded bias row are the key bias. -/
theorem in0_b_key (c : Dev nD) (b : Fin 4) (h : Fin 64) :
    iblk0 (V1 m ρ) c 2 (pt0 b.val b.isLt) (ix2 (0 : Fin 1) (⟨h.val, by omega⟩ : Fin 128)) = m ((c : Thread nD τ).loc main_arg3) (ix1 h) := by
  refine (blk0_2 (V1 m ρ) c (pt0 b.val b.isLt) _).trans ((congrFun (V1_v3 m ρ c) _).trans ?_)
  refine (shapeCast_a_1a_apply _ _ (0 : Fin 1) _).trans ?_
  refine concatenate_pair_apply_left (t := S128) (s₁ := S64) (s₂ := S64) (0 : Fin 1) _ _ _ _ rfl (ix1 h) fun a => ?_
  match a with
  | ⟨0, _⟩ => rfl

/-- Lanes 64–127 of the padded bias row are the zero word. -/
theorem in0_b_val (c : Dev nD) (b : Fin 4) (h : Fin 64) :
    iblk0 (V1 m ρ) c 2 (pt0 b.val b.isLt) (ix2 (0 : Fin 1) (⟨64 + h.val, by omega⟩ : Fin 128)) = FloatOps.ofBits (F := F) .f32 0x00000000#32 := by
  refine (blk0_2 (V1 m ρ) c (pt0 b.val b.isLt) _).trans ((congrFun (V1_v3 m ρ c) _).trans ?_)
  refine (shapeCast_a_1a_apply _ _ (0 : Fin 1) _).trans ?_
  refine (concatenate_pair_apply_right (t := S128) (s₁ := S64) (s₂ := S64) (0 : Fin 1) _ _ _ _ rfl rfl (ix1 h) (fun a ha => ?_) ?_).trans rfl
  · match a with
    | ⟨0, _⟩ => exact absurd rfl ha
  · show h.val + 64 = 64 + h.val
    omega

end Cert.KernelIdeal.AttnK

end
-- ==== Proof.Spec.lean ====
/-
  The mathematics both programs compute, as ONE function of the nine argument arrays, index by index on the
  extended reals.

  For batch `b`, key position `s`, query position `t` and head coordinate `h`:
    keyAt   b s h = tanh (∑ e, tok b s e · key_w h e + key_b h)
    valAt   b s h = tanh (∑ e, tok b s e · value_w h e)
    queryAt b t h = tanh (x b t 0 · query_w h 0 + query_b h)
    score   b t s = (∑ h, queryAt b t h · keyAt b s h) · (1/8)
    weight  b t s = exp (score b t s) · (1 / ∑ t', exp (score b t' s))      -- softmax over the QUERY axis t
    mix     b t h = ∑ s, weight b t s · valAt b s h
    out     b t   = (∑ h, tanh (mix b t h) · proj_w 0 h) + proj_b 0
  The hyperbolic tangent of ANY extended real is a real in [-1, 1], so every score is a real number whatever
  the inputs are; that is why the normalisation by the column sum needs no hypothesis on the inputs.
-/
import Idealize.ShloMosaic.PureOps.Ideal
import Idealize.ShloMosaic.PureOps.Ideal.Laws
import Idealize.ShloMosaic.Lib.ValueIdx

noncomputable section

namespace Attn

open Idealize.ShloMosaic Idealize.ShloMosaic.ValueIdx
open scoped BigOperators

/-- The argument arrays, as functions of literal-shape indices. -/
abbrev TX := (⟨3, ![4, 4096, 1]⟩ : Shape).Idx → EReal
abbrev TTok := (⟨3, ![4, 4096, 512]⟩ : Shape).Idx → EReal
abbrev TW := (⟨2, ![64, 512]⟩ : Shape).Idx → EReal
abbrev TB := (⟨1, ![64]⟩ : Shape).Idx → EReal
abbrev TQW := (⟨2, ![64, 1]⟩ : Shape).Idx → EReal
abbrev TPW := (⟨2, ![1, 64]⟩ : Shape).Idx → EReal
abbrev TPB := (⟨1, ![1]⟩ : Shape).Idx → EReal

/-- The scale `1/8` and the numerator `1` of the reciprocal, as the f32 words both programs carry. -/
abbrev eighth : EReal := Ideal.ofBits .f32 0x3E000000#32
abbrev one : EReal := Ideal.ofBits .f32 0x3F800000#32

/-- Key projection: `tanh (tok · key_wᵀ + key_b)`. -/
def keyAt (tok : TTok) (kw : TW) (kb : TB) (b : Fin 4) (s : Fin 4096) (h : Fin 64) : EReal :=
  Ideal.tanh ((∑ e : Fin 512, tok (ix3 b s e) * kw (ix2 h e)) + kb (ix1 h))

/-- Value projection: `tanh (tok · value_wᵀ)` (no bias). -/
def valAt (tok : TTok) (vw : TW) (b : Fin 4) (s : Fin 4096) (h : Fin 64) : EReal :=
  Ideal.tanh (∑ e : Fin 512, tok (ix3 b s e) * vw (ix2 h e))

/-- Query projection of the width-one input: `tanh (x · query_w + query_b)`. -/
def queryAt (x : TX) (qw : TQW) (qb : TB) (b : Fin 4) (t : Fin 4096) (h : Fin 64) : EReal :=
  Ideal.tanh (x (ix3 b t 0) * qw (ix2 h 0) + qb (ix1 h))

/-- Scaled score of query `t` against key `s`. -/
def score (x : TX) (tok : TTok) (kw : TW) (kb : TB) (qw : TQW) (qb : TB) (b : Fin 4) (t s : Fin 4096) : EReal :=
  (∑ h : Fin 64, queryAt x qw qb b t h * keyAt tok kw kb b s h) * eighth

/-- Softmax weight, normalised over the query axis: `exp (score t s) · (1 / ∑ t', exp (score t' s))`. -/
def weight (x : TX) (tok : TTok) (kw : TW) (kb : TB) (qw : TQW) (qb : TB) (b : Fin 4) (t s : Fin 4096) : EReal :=
  Ideal.exp (score x tok kw kb qw qb b t s)
    * Ideal.div one (∑ t' : Fin 4096, Ideal.exp (score x tok kw kb qw qb b t' s))

/-- Weighted mix of the values over all key positions. -/
def mix (x : TX) (tok : TTok) (kw : TW) (kb : TB) (qw : TQW) (qb : TB) (vw : TW) (b : Fin 4) (t : Fin 4096) (h : Fin 64) : EReal :=
  ∑ s : Fin 4096, weight x tok kw kb qw qb b t s * valAt tok vw b s h

/-- The output: projection of `tanh mix` onto the single output coordinate, plus its bias. -/
def out (x : TX) (tok : TTok) (kw : TW) (kb : TB) (qw : TQW) (qb : TB) (vw : TW) (pw : TPW) (pb : TPB)
    (b : Fin 4) (t : Fin 4096) : EReal :=
  (∑ h : Fin 64, Ideal.tanh (mix x tok kw kb qw qb vw b t h) * pw (ix2 0 h)) + pb (ix1 0)

/-- The result array `[4, 4096]` both programs end with. -/
def result (x : TX) (tok : TTok) (kw : TW) (kb : TB) (qw : TQW) (qb : TB) (vw : TW) (pw : TPW) (pb : TPB) :
    (⟨2, ![4, 4096]⟩ : Shape).Idx → EReal :=
  fun i => out x tok kw kb qw qb vw pw pb (i 0) (i 1)

end Attn

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibDotT.lean ====
/-
  General lemmas, at any extents.

  * A matrix product that contracts the SECOND axis of both operands, with no batch axes — an [M, K] matrix times the
    transpose of an [N, K] matrix — read at (p, q) is the sum over k < K of lhs (p, k) · rhs (q, k); for a kernel's
    accumulating product into the zero splat.
  * Reducing the FIRST axis of an [a, b] vector to [b]: the reduced index q with coordinate k put back is (k, q).
-/
import Idealize.ShloMosaic.Lib.ValueIdx
import Idealize.ShloMosaic.PureOps.Ideal.Laws
import proofs.«104109_j58385785422224_2_alg».proof.Proof.LibDot

noncomputable section

namespace Idealize.ShloMosaic.LibDotT

open Idealize.ShloMosaic Idealize.ShloMosaic.ValueIdx

/-- The sum over the contraction shape is the sum over the contracted extent. -/
theorem sum_nt {M K N : ℕ} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact LibDot.lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 q k := by
    funext a; apply Fin.ext
    match a with
    | ⟨0, _⟩ =>
      exact LibDot.rhsIdx_val_of_non d (a := 0) (by rw [hrb]; exact List.not_mem_nil) (by rw [hrn]; exact List.mem_singleton.mpr rfl) _ _ 1 (Nat.one_lt_two)
        (by rw [hlb, hln, hrn]; rfl)
    | ⟨1, _⟩ =>
      exact (d.rhsIdx_val_of_single (cr := 1) hrc _ _).trans (contrEquiv1_symm_val d K hr hs k)
  rw [hl, hrr]

/-- A kernel's product of a matrix with a transposed matrix, accumulated into the zero splat, read at (p, q). -/
theorem matmul_zero_nt {M K N : ℕ} {φ₁ φ₂ : FTy} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) :=
  (Ideal.matmul_constant_zero_apply d prec lhs rhs (ix2 p q)).trans (sum_nt d hlc hrc hlb hrb hln hrn lhs rhs p q)

/-- Reducing the first axis of `[a, b]` to `[b]`: the reduced index `q` with coordinate `k` put back is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by
    match ax with
    | ⟨0, _⟩ => rfl
    | ⟨1, _⟩ => rfl)

end Idealize.ShloMosaic.LibDotT

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.KPay1.lean ====
/-
  Three of the kernel's four payloads, read at an index on the extended reals.

  * The accumulator's initial value is zero everywhere.
  * The key/value projection tile at (u, s, j) is tanh (∑ e, tok (0, s, e) · w (j, e) + bias (0, j)): a product with
    a transposed matrix into a zero accumulator, plus a row broadcast down the rows, under a hyperbolic tangent; the
    format changes are the identity on extended reals and the shape casts only add or drop a leading unit axis.
  * The output tile at (u, t, w) is (∑ h, tanh (acc (t, h)) · pw (0, h)) + pb (0, 0): a sum along the second axis of
    a pointwise product with a broadcast row, cast to a column, plus a broadcast scalar.
-/
import proofs.«104109_j58385785422224_2_alg».proof.Proof.Gen.KernelIdeal.Skeleton
import proofs.«104109_j58385785422224_2_alg».proof.Proof.Spec
import proofs.«104109_j58385785422224_2_alg».proof.Proof.LibDot
import proofs.«104109_j58385785422224_2_alg».proof.Proof.LibDotT
import proofs.«104109_j58385785422224_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnK

open Cert.KernelIdeal Cert.KernelIdeal.Gen Cert.KernelIdeal.Facts₀ Idealize.ShloMosaic Idealize.ShloMosaic.ValueIdx
open Idealize.ShloMosaic.LibDot Idealize.ShloMosaic.LibDotT Cert.LibColumn
open scoped BigOperators

/-- A vector hyperbolic tangent at an index is the hyperbolic tangent of the element. -/
theorem tanh_apply {s : Shape} {φ : FTy} (a : FVec Ideal s φ) (i : s.Idx) : tanh a i = Ideal.tanh (a i) := rfl
/-- A vector exponential at an index is the exponential of the element. -/
theorem exp_apply {s : Shape} {φ : FTy} (a : FVec Ideal s φ) (i : s.Idx) : exp a i = Ideal.exp (a i) := rfl

/-- The accumulator's initial value: zero everywhere. -/
theorem pay1_apply (j : S4096x64.Idx) : k1_pay1 (F := Ideal) j = 0 := by
  unfold k1_pay1
  rw [shapeCast_self]
  exact Ideal.ofBits_zero_f32

/-- The key/value projection tile at (u, s, j). -/
theorem pay0_apply (v0 : Vec Ideal S1x4096x512 .f32) (v3 : Vec Ideal S128x512 .f32) (v7 : Vec Ideal S1x128 .f32)
    (u : Fin 1) (s : Fin 4096) (j : Fin 128) :
    k0_pay1 (F := Ideal) v0 v3 v7 (ix3 u s j)
      = Ideal.tanh ((∑ e : Fin 512, v0 (ix3 (0 : Fin 1) s e) * v3 (ix2 j e)) + v7 (ix2 (0 : Fin 1) j)) := by
  unfold k0_pay1
  rw [shapeCast_ab_1ab_apply, tanh_apply, addf_apply,
    matmul_zero_nt dot_S4096x512_S128x512_S4096x128_1_1_0_0_n_n rfl rfl rfl rfl rfl rfl,
    broadcastTo_1b_ab_apply, shapeCast_self, shapeCast_self]
  refine congrArg (fun z => Ideal.tanh (z + v7 (ix2 (0 : Fin 1) j))) (Finset.sum_congr rfl fun k _ => ?_)
  rw [truncf_apply, truncf_apply, shapeCast_1ab_ab_apply]

/-- The output tile at (u, t, w). -/
theorem pay3_apply (v18 : Vec Ideal S4096x64 .f32) (v20 : Vec Ideal S1x64 .f32) (v25 : Vec Ideal S1x1 .f32)
    (u : Fin 1) (t : Fin 4096) (w : Fin 1) :
    k1_pay3 (F := Ideal) v18 v20 v25 (ix3 u t w)
      = (∑ h : Fin 64, Ideal.tanh (v18 (ix2 t h)) * v20 (ix2 (0 : Fin 1) h)) + v25 (ix2 (0 : Fin 1) (0 : Fin 1)) := by
  obtain rfl : w = 0 := Subsingleton.elim _ _
  unfold k1_pay3
  rw [shapeCast_ab_1ab_apply, addf_apply, shapeCast_a_a1_apply, broadcastTo_1b_ab_apply, shapeCast_self]
  refine congrArg (· + v25 (ix2 (0 : Fin 1) (0 : Fin 1))) ?_
  refine (Ideal.multiReduction_add_single _ _ _ _ _ _).trans (Finset.sum_congr rfl fun (k : Fin 64) _ => ?_)
  rw [lift_row, mulf_apply, tanh_apply, broadcastTo_1b_ab_apply]

end Cert.KernelIdeal.AttnK

end
-- ==== Proof.KPay2.lean ====
/-
  The kernel's attention payload, read at an index on the extended reals.

  For one key/value tile of 256 positions (lanes 0–63 of the tile the keys, lanes 64–127 the values) and all 4096
  queries, the payload adds to the accumulator at (t, h)
      ∑ s, wt t s · value (s, h),     wt t s = exp (sc t s) · (1 / ∑ t', exp (sc t' s)),
  where sc t s = (∑ h, q t h · key (s, h)) · (1/8) and q t h = tanh (x t · qw h + qb h). The softmax is normalised
  over the QUERY axis, all of which the kernel holds at once, so the column sums are complete within the tile.
  The format changes are the identity on extended reals; the shape casts and broadcasts only add, drop or repeat axes.
-/
import proofs.«104109_j58385785422224_2_alg».proof.Proof.KPay1

noncomputable section

namespace Cert.KernelIdeal.AttnK

open Cert.KernelIdeal Cert.KernelIdeal.Gen Idealize.ShloMosaic Idealize.ShloMosaic.ValueIdx
open Idealize.ShloMosaic.LibDot Idealize.ShloMosaic.LibDotT Cert.LibColumn
open scoped BigOperators

/-- The query projection of query `t` at head coordinate `h`. -/
def qAt (v0 : Vec Ideal S1x4096x1 .f32) (v2 v7 : Vec Ideal S1x64 .f32) (t : Fin 4096) (h : Fin 64) : EReal :=
  Ideal.tanh (v0 (ix3 (0 : Fin 1) t (0 : Fin 1)) * v2 (ix2 (0 : Fin 1) h) + v7 (ix2 (0 : Fin 1) h))

/-- The scaled score of query `t` against position `s` of the tile (keys: lanes 0–63). -/
def scAt (v0 : Vec Ideal S1x4096x1 .f32) (v2 v7 : Vec Ideal S1x64 .f32) (v37 : Vec Ideal S1x256x128 .f32)
    (t : Fin 4096) (s : Fin 256) : EReal :=
  (∑ h : Fin 64, qAt v0 v2 v7 t h * v37 (ix3 (0 : Fin 1) s ⟨h.val, by omega⟩)) * Attn.eighth

/-- The softmax weight, normalised over the query axis. -/
def wtAt (v0 : Vec Ideal S1x4096x1 .f32) (v2 v7 : Vec Ideal S1x64 .f32) (v37 : Vec Ideal S1x256x128 .f32)
    (t : Fin 4096) (s : Fin 256) : EReal :=
  Ideal.exp (scAt v0 v2 v7 v37 t s) * Ideal.div Attn.one (∑ t' : Fin 4096, Ideal.exp (scAt v0 v2 v7 v37 t' s))

/-- The query tile: tanh (column of x · row of the query weight + row of the query bias). -/
def qVec (v0 : Vec Ideal S1x4096x1 .f32) (v2 v7 : Vec Ideal S1x64 .f32) : FVec Ideal S4096x64 .bf16 :=
  truncf .bf16 (tanh (addf (mulf (broadcastTo S4096x64 (shapeCast S4096x1 v0 shapeCasts_S1x4096x1_S4096x1) broadcasts_S4096x1_S4096x64)
      (broadcastTo S4096x64 (shapeCast S1x64 v2 shapeCasts_S1x64_S1x64) broadcasts_S1x64_S4096x64))
    (broadcastTo S4096x64 (shapeCast S1x64 v7 shapeCasts_S1x64_S1x64) broadcasts_S1x64_S4096x64))) bitsLt_bf16_f32

theorem qVec_apply (v0 : Vec Ideal S1x4096x1 .f32) (v2 v7 : Vec Ideal S1x64 .f32) (t : Fin 4096) (h : Fin 64) :
    qVec v0 v2 v7 (ix2 t h) = qAt v0 v2 v7 t h := by
  unfold qVec qAt
  rw [truncf_apply, tanh_apply, addf_apply, mulf_apply, broadcastTo_a1_ab_apply, broadcastTo_1b_ab_apply,
    broadcastTo_1b_ab_apply, shapeCast_self, shapeCast_self, shapeCast_1ab_ab_apply]

/-- The keys of the tile: its lanes 0–63. -/
def kVec (v37 : Vec Ideal S1x256x128 .f32) : FVec Ideal S256x64 .bf16 :=
  truncf .bf16 (extractStridedSlice S256x64 ![0, 0] (shapeCast S256x128 v37 shapeCasts_S1x256x128_S256x128) slices_S256x128_o0_0_S256x64) bitsLt_bf16_f32

theorem kVec_apply (v37 : Vec Ideal S1x256x128 .f32) (s : Fin 256) (h : Fin 64) :
    kVec v37 (ix2 s h) = v37 (ix3 (0 : Fin 1) s ⟨h.val, by omega⟩) := by
  unfold kVec
  rw [truncf_apply]
  refine (slice2_axis1_apply 0 _ slices_S256x128_o0_0_S256x64 s h ⟨h.val, by omega⟩ (Nat.zero_add _).symm).trans ?_
  rw [shapeCast_1ab_ab_apply]

/-- The values of the tile: its lanes 64–127. -/
def vVec (v37 : Vec Ideal S1x256x128 .f32) : FVec Ideal S256x64 .bf16 :=
  truncf .bf16 (extractStridedSlice S256x64 ![0, 64] (shapeCast S256x128 v37 shapeCasts_S1x256x128_S256x128) slices_S256x128_o0_64_S256x64) bitsLt_bf16_f32

theorem vVec_apply (v37 : Vec Ideal S1x256x128 .f32) (s : Fin 256) (h : Fin 64) :
    vVec v37 (ix2 s h) = v37 (ix3 (0 : Fin 1) s ⟨64 + h.val, by omega⟩) := by
  unfold vVec
  rw [truncf_apply, slice2_axis1_apply 64 _ _ s h ⟨64 + h.val, by omega⟩ rfl, shapeCast_1ab_ab_apply]

/-- The exponentials of the scaled scores, queries × tile positions. -/
def expVec (v0 : Vec Ideal S1x4096x1 .f32) (v2 v7 : Vec Ideal S1x64 .f32) (v37 : Vec Ideal S1x256x128 .f32) :
    FVec Ideal S4096x256 .f32 :=
  exp (mulf (matmul dot_S4096x64_S256x64_S4096x256_1_1_0_0_n_n none (qVec v0 v2 v7) (kVec v37) (constant S4096x256 .f32 0x00000000#32))
    (broadcast S4096x256 (Scalar.ofBits .f32 0x3E000000#32)))

theorem expVec_apply (v0 : Vec Ideal S1x4096x1 .f32) (v2 v7 : Vec Ideal S1x64 .f32) (v37 : Vec Ideal S1x256x128 .f32)
    (t : Fin 4096) (s : Fin 256) : expVec v0 v2 v7 v37 (ix2 t s) = Ideal.exp (scAt v0 v2 v7 v37 t s) := by
  unfold expVec scAt
  rw [exp_apply, mulf_apply, matmul_zero_nt dot_S4096x64_S256x64_S4096x256_1_1_0_0_n_n rfl rfl rfl rfl rfl rfl, broadcast_apply]
  refine congrArg (fun z => Ideal.exp (z * Attn.eighth)) (Finset.sum_congr rfl fun h _ => ?_)
  rw [qVec_apply, kVec_apply]

/-- The payload is the accumulator plus the product of the normalised weights with the values. -/
theorem k1_pay2_eq (v0 : Vec Ideal S1x4096x1 .f32) (v2 v7 : Vec Ideal S1x64 .f32) (v37 : Vec Ideal S1x256x128 .f32)
    (v54 : Vec Ideal S4096x64 .f32) :
    k1_pay2 (F := Ideal) v0 v2 v7 v37 v54
      = shapeCast S4096x64 (addf v54 (matmul dot_S4096x256_S256x64_S4096x64_1_0_0_1_n_n none
          (truncf .bf16 (mulf (expVec v0 v2 v7 v37) (broadcastTo S4096x256 (divf (broadcast S1x256 (Scalar.ofBits .f32 0x3F800000#32))
            (shapeCast S1x256 (multiReduction .add [0] S256 (expVec v0 v2 v7 v37) 0x00000000#32 reduces_S4096x256_S256 (.inl rfl) rfl)
              shapeCasts_S256_S1x256)) broadcasts_S1x256_S4096x256)) bitsLt_bf16_f32)
          (vVec v37) (constant S4096x64 .f32 0x00000000#32))) shapeCasts_S4096x64_S4096x64 := rfl

/-- THE ATTENTION PAYLOAD at (t, h). -/
theorem pay2_apply (v0 : Vec Ideal S1x4096x1 .f32) (v2 v7 : Vec Ideal S1x64 .f32) (v37 : Vec Ideal S1x256x128 .f32)
    (v54 : Vec Ideal S4096x64 .f32) (t : Fin 4096) (h : Fin 64) :
    k1_pay2 (F := Ideal) v0 v2 v7 v37 v54 (ix2 t h)
      = v54 (ix2 t h) + ∑ s : Fin 256, wtAt v0 v2 v7 v37 t s * v37 (ix3 (0 : Fin 1) s ⟨64 + h.val, by omega⟩) := by
  refine (congrFun (k1_pay2_eq v0 v2 v7 v37 v54) (ix2 t h)).trans ?_
  rw [shapeCast_self, addf_apply, matmul_zero_plain dot_S4096x256_S256x64_S4096x64_1_0_0_1_n_n rfl rfl rfl rfl rfl rfl]
  refine congrArg (v54 (ix2 t h) + ·) (Finset.sum_congr rfl fun s _ => ?_)
  rw [vVec_apply, truncf_apply, mulf_apply, expVec_apply, broadcastTo_1b_ab_apply, divf_apply, broadcast_apply,
    shapeCast_a_1a_apply]
  unfold wtAt
  refine congrArg (fun z => Ideal.exp (scAt v0 v2 v7 v37 t s) * Ideal.div Attn.one z * v37 (ix3 (0 : Fin 1) s ⟨64 + h.val, by omega⟩)) ?_
  refine (Ideal.multiReduction_add_single _ _ _ _ _ _).trans (Finset.sum_congr rfl fun (k : Fin 4096) _ => ?_)
  rw [lift_col, expVec_apply]

end Cert.KernelIdeal.AttnK

end
-- ==== Proof.KValue.lean ====
/-
  The kernel program's result array is the specification's.

  At batch element `b` the attention body's blocks are entries of the argument arrays, so its query rows are the
  specification's `queryAt`, lanes 0–63 of the key/value array its `keyAt` and lanes 64–127 its `valAt` (the padded
  bias adds zero there). Trip `k` of the body's loop takes key rows `256 k … 256 k + 255`: its scores and softmax
  weights are the specification's at key position `256 k + s` — the normalising sum runs over all 4096 queries in
  every trip —, and it adds `∑ s < 256, weight · value` to the accumulator. After `k` trips the accumulator holds the
  sum over the first `256 k` key positions; after all sixteen, the specification's `mix`. Sums of extended reals
  regroup freely (addition is commutative and associative there), and adding the zero the accumulator starts from
  changes nothing.
-/
import proofs.«104109_j58385785422224_2_alg».proof.Proof.KInputs
import proofs.«104109_j58385785422224_2_alg».proof.Proof.KPay1
import proofs.«104109_j58385785422224_2_alg».proof.Proof.KPay2
import proofs.«104109_j58385785422224_2_alg».proof.Proof.Spec
import Idealize.ShloMosaic.Lib.ValueLayout

set_option maxRecDepth 16384

noncomputable section

namespace Cert.KernelIdeal.AttnK

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- A `[a, b, 1]` array cast to `[a, b]` reads, at `(p, q)`, the operand at `(p, q, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A tile of the staged key/value block, at `(0, s, j)`, is the block at row `256 k + s`. -/
theorem tile_apply (X3 : Vec Ideal S1x4096x128 .f32) (k : Fin k1_t1_loop.trips) (s : Fin 256) (j : Fin 128) :
    tile X3 k (ix3 (0 : Fin 1) s j)
      = X3 (ix3 (0 : Fin 1) (⟨256 * k.val + s.val, by have := Nat.lt_of_lt_of_le k.isLt k1_t1_abs.2.1; omega⟩ : Fin 4096) j) := by
  show X3 _ = X3 _
  refine congrArg _ (funext fun a => Fin.ext ?_)
  have hk := k1_off1_eq k
  match a with
  | ⟨0, _⟩ => show k1_off1 k (0 : Fin 3) + 1 * 0 = 0; rw [hk]; rfl
  | ⟨1, _⟩ => show k1_off1 k (1 : Fin 3) + 1 * s.val = 256 * k.val + s.val; rw [hk]; show 256 * k.val + 1 * s.val = _; omega
  | ⟨2, _⟩ => show k1_off1 k (2 : Fin 3) + 1 * j.val = j.val; rw [hk]; show 0 + 1 * j.val = _; omega

section Point

variable (c : Dev nD) (b : Fin 4)

/-- Lanes 0–63 of the key/value block at batch element `b` are the specification's keys. -/
theorem kv_key (s : Fin 4096) (h : Fin 64) :
    iblk1 (V3 m ρ) c 3 (pt1 b.val b.isLt) (ix3 (0 : Fin 1) s (⟨h.val, by omega⟩ : Fin 128))
      = Attn.keyAt (m ((c : Thread nD τ).loc main_arg1)) (m ((c : Thread nD τ).loc main_arg2)) (m ((c : Thread nD τ).loc main_arg3)) b s h := by
  rw [in1_kv]
  show k0_pay1 (iblk0 (V1 m ρ) c 0 (pt0 b.val b.isLt)) (iblk0 (V1 m ρ) c 1 (pt0 b.val b.isLt)) (iblk0 (V1 m ρ) c 2 (pt0 b.val b.isLt))
    (ix3 (0 : Fin 1) s (⟨h.val, by omega⟩ : Fin 128)) = _
  rw [pay0_apply, in0_b_key]
  unfold Attn.keyAt
  refine congrArg (fun z => Ideal.tanh (z + _)) (Finset.sum_congr rfl fun e _ => ?_)
  rw [in0_tok, in0_w_key]

/-- Lanes 64–127 of the key/value block at batch element `b` are the specification's values. -/
theorem kv_val (s : Fin 4096) (h : Fin 64) :
    iblk1 (V3 m ρ) c 3 (pt1 b.val b.isLt) (ix3 (0 : Fin 1) s (⟨64 + h.val, by omega⟩ : Fin 128))
      = Attn.valAt (m ((c : Thread nD τ).loc main_arg1)) (m ((c : Thread nD τ).loc main_arg6)) b s h := by
  rw [in1_kv]
  show k0_pay1 (iblk0 (V1 m ρ) c 0 (pt0 b.val b.isLt)) (iblk0 (V1 m ρ) c 1 (pt0 b.val b.isLt)) (iblk0 (V1 m ρ) c 2 (pt0 b.val b.isLt))
    (ix3 (0 : Fin 1) s (⟨64 + h.val, by omega⟩ : Fin 128)) = _
  rw [pay0_apply, in0_b_val]
  unfold Attn.valAt
  show Ideal.tanh (_ + Ideal.ofBits .f32 0x00000000#32) = _
  rw [Ideal.ofBits_zero_f32, add_zero]
  refine congrArg Ideal.tanh (Finset.sum_congr rfl fun e _ => ?_)
  rw [in0_tok, in0_w_val]

/-- The body's query rows at batch element `b` are the specification's. -/
theorem q_eq (t : Fin 4096) (h : Fin 64) :
    qAt (iblk1 (V3 m ρ) c 0 (pt1 b.val b.isLt)) (iblk1 (V3 m ρ) c 1 (pt1 b.val b.isLt)) (iblk1 (V3 m ρ) c 2 (pt1 b.val b.isLt)) t h
      = Attn.queryAt (m ((c : Thread nD τ).loc main_arg0)) (m ((c : Thread nD τ).loc main_arg4)) (m ((c : Thread nD τ).loc main_arg5)) b t h := by
  unfold qAt Attn.queryAt
  rw [in1_x, in1_qw, in1_qb]

/-- The key position trip `k`'s row `s` stands for. -/
abbrev pos (k : Fin k1_t1_loop.trips) (s : Fin 256) : Fin 4096 :=
  ⟨256 * k.val + s.val, by have := Nat.lt_of_lt_of_le k.isLt k1_t1_abs.2.1; omega⟩

/-- Trip `k`'s scores are the specification's at key position `256 k + s`. -/
theorem sc_eq (k : Fin k1_t1_loop.trips) (t : Fin 4096) (s : Fin 256) :
    scAt (iblk1 (V3 m ρ) c 0 (pt1 b.val b.isLt)) (iblk1 (V3 m ρ) c 1 (pt1 b.val b.isLt)) (iblk1 (V3 m ρ) c 2 (pt1 b.val b.isLt))
        (tile (iblk1 (V3 m ρ) c 3 (pt1 b.val b.isLt)) k) t s
      = Attn.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b t (pos k s) := by
  unfold scAt Attn.score
  refine congrArg (· * Attn.eighth) (Finset.sum_congr rfl fun h _ => ?_)
  rw [q_eq, tile_apply]
  exact congrArg _ (kv_key m ρ c b (pos k s) h)

/-- Trip `k`'s softmax weights are the specification's at key position `256 k + s`. -/
theorem wt_eq (k : Fin k1_t1_loop.trips) (t : Fin 4096) (s : Fin 256) :
    wtAt (iblk1 (V3 m ρ) c 0 (pt1 b.val b.isLt)) (iblk1 (V3 m ρ) c 1 (pt1 b.val b.isLt)) (iblk1 (V3 m ρ) c 2 (pt1 b.val b.isLt))
        (tile (iblk1 (V3 m ρ) c 3 (pt1 b.val b.isLt)) k) t s
      = Attn.weight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b t (pos k s) := by
  unfold wtAt Attn.weight
  rw [sc_eq]
  refine congrArg (fun z => _ * Ideal.div Attn.one z) (Finset.sum_congr rfl fun t' _ => ?_)
  rw [sc_eq]

/-- The term of the mix at key position `n` (zero past the last position). -/
def mixTerm (t : Fin 4096) (h : Fin 64) (n : ℕ) : EReal :=
  if hn : n < 4096 then
    Attn.weight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b t ⟨n, hn⟩ * Attn.valAt (m ((c : Thread nD τ).loc main_arg1)) (m ((c : Thread nD τ).loc main_arg6)) b ⟨n, hn⟩ h
  else 0

/-- After `k` trips the accumulator holds the mix over the first `256 k` key positions. -/
theorem acc_eq (t : Fin 4096) (h : Fin 64) : ∀ k : ℕ, k ≤ k1_t1_loop.trips →
    accFrom (iblk1 (V3 m ρ) c 0 (pt1 b.val b.isLt)) (iblk1 (V3 m ρ) c 1 (pt1 b.val b.isLt)) (iblk1 (V3 m ρ) c 2 (pt1 b.val b.isLt))
        (iblk1 (V3 m ρ) c 3 (pt1 b.val b.isLt)) (k1_pay1 (F := Ideal)) k (ix2 t h)
      = ∑ n ∈ Finset.range (256 * k), mixTerm m c b t h n
  | 0, _ => by
    rw [accFrom, pay1_apply]; rfl
  | k + 1, hk => by
    have hk' : k < k1_t1_loop.trips := hk
    have ih := acc_eq t h k (Nat.le_of_lt hk')
    rw [show k + 1 = (⟨k, hk'⟩ : Fin k1_t1_loop.trips).val + 1 from rfl, accFrom_succ, pay2_apply, ih,
      show 256 * ((⟨k, hk'⟩ : Fin k1_t1_loop.trips).val + 1) = 256 * k + 256 from by show 256 * (k + 1) = _; omega,
      Finset.sum_range_add, Finset.sum_range (fun x => mixTerm m c b t h (256 * k + x))]
    refine congrArg (_ + ·) (Finset.sum_congr rfl fun s _ => ?_)
    have h16 := Nat.lt_of_lt_of_le hk' k1_t1_abs.2.1
    have hs : 256 * k + s.val < 4096 := by have := s.isLt; omega
    rw [wt_eq, tile_apply, kv_val]
    unfold mixTerm
    rw [dif_pos hs]

/-- The body's output block at batch element `b` is the specification's output row. -/
theorem body_eq (t : Fin 4096) :
    bodyOut (V3 m ρ) c (pt1 b.val b.isLt) (ix3 (0 : Fin 1) t (0 : Fin 1))
      = Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b t := by
  unfold bodyOut
  rw [pay3_apply, in1_pb]
  unfold Attn.out
  refine congrArg (· + _) (Finset.sum_congr rfl fun h _ => ?_)
  rw [in1_pw, acc_eq m ρ c b t h _ (le_refl _)]
  refine congrArg (fun z => Ideal.tanh z * _) ?_
  unfold Attn.mix
  have h16 : k1_t1_loop.trips = 16 := rfl
  rw [h16, show 256 * 16 = 4096 from rfl, Finset.sum_range]
  refine Finset.sum_congr rfl fun s _ => ?_
  unfold mixTerm
  rw [dif_pos s.isLt]

end Point

/-- THE KERNEL SIDE: the program's result buffer ends at the specification's result array. -/
theorem result_eq (c : Dev nD) :
    (W5 m ρ c (Proc.devRef .tc main_v9) : S4x4096.Idx → EReal)
      = Attn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, t, rfl⟩ : ∃ (b : Fin 4) (t : Fin 4096), i = ix2 b t := ⟨i 0, i 1, eq_ix2 i⟩
  rw [W5_v9, final1, shapeCast_ab1_ab_apply]
  exact body_eq m ρ c b t

end Cert.KernelIdeal.AttnK

end
-- ==== Proof.RefSoftmax.lean ====
/-
  The softmax shift on the extended reals, free of any program.

  For real scores `r t` over a finite nonempty index set and ANY real shift `μ`,
      exp (r t - μ) / (0 + ∑ t', exp (r t' - μ))  =  exp (r t) · (1 / ∑ t', exp (r t')),
  because exp (r - μ) = exp r / exp μ and the common factor 1 / exp μ cancels between the numerator and the
  (positive, real) column sum. Stated over extended-real scores that are known to be real, with the ideal
  instance's `exp` and `div`; the constants `one` and `zero` are whatever terms denote 1 and 0.

  Also: the fold of `max` from ⊥ over a nonempty finite family of reals is a real (it is above ⊥ because one
  member is, and below ⊤ because every member is).
-/
import Idealize.ShloMosaic.PureOps.Ideal
import Mathlib.Data.Finset.Fold
import Mathlib.Tactic

namespace Attn.Ref

open Idealize.ShloMosaic
open scoped BigOperators

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The hyperbolic tangent of any extended real is a real. -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- A finite sum of products of reals is a real. -/
theorem sum_mul_real {ι : Type*} [Fintype ι] (f g : ι → EReal) (hf : ∀ i, ∃ r : ℝ, f i = (r : EReal))
    (hg : ∀ i, ∃ r : ℝ, g i = (r : EReal)) : ∃ r : ℝ, ∑ i, f i * g i = (r : EReal) := by
  choose f' hf' using hf
  choose g' hg' using hg
  refine ⟨∑ i, f' i * g' i, ?_⟩
  rw [← coe_sum]
  exact Finset.sum_congr rfl fun i _ => by rw [hf' i, hg' i, EReal.coe_mul]

/-- The real identity: the shift cancels. -/
theorem real_softmax_shift {ι : Type*} [Fintype ι] [Nonempty ι] (r : ι → ℝ) (μ : ℝ) (t : ι) :
    Real.exp (r t - μ) * (1 / ∑ t', Real.exp (r t' - μ)) = Real.exp (r t) * (1 / ∑ t', Real.exp (r t')) := by
  have hS : 0 < ∑ t', Real.exp (r t') := Finset.sum_pos (fun i _ => Real.exp_pos _) Finset.univ_nonempty
  have hμ : 0 < Real.exp μ := Real.exp_pos μ
  have hL : ∑ t', Real.exp (r t' - μ) = (∑ t', Real.exp (r t')) / Real.exp μ := by
    rw [Finset.sum_div]; exact Finset.sum_congr rfl fun i _ => Real.exp_sub _ _
  rw [hL, Real.exp_sub]
  field_simp

/-- THE SOFTMAX SHIFT: with real scores `sc`, a real shift `m`, `zero = 0` and `one = 1`, the shifted quotient is the
    unshifted exponential times the reciprocal of the unshifted column sum. -/
theorem softmax_shift {ι : Type*} [Fintype ι] [Nonempty ι] (sc : ι → EReal) (hsc : ∀ t, ∃ r : ℝ, sc t = (r : EReal))
    (m zero one : EReal) (hm : ∃ μ : ℝ, m = (μ : EReal)) (hzero : zero = 0) (hone : one = 1) (t : ι) :
    Ideal.div (Ideal.exp (sc t - m)) (zero + ∑ t', Ideal.exp (sc t' - m))
      = Ideal.exp (sc t) * Ideal.div one (∑ t', Ideal.exp (sc t')) := by
  choose r hr using hsc
  obtain ⟨μ, rfl⟩ := hm
  subst hzero hone
  have hS : 0 < ∑ t', Real.exp (r t') := Finset.sum_pos (fun i _ => Real.exp_pos _) Finset.univ_nonempty
  have hL : 0 < ∑ t', Real.exp (r t' - μ) := Finset.sum_pos (fun i _ => Real.exp_pos _) Finset.univ_nonempty
  have e1 : ∀ t', Ideal.exp (sc t' - (μ : EReal)) = ((Real.exp (r t' - μ) : ℝ) : EReal) := fun t' => by
    rw [hr t', ← EReal.coe_sub, Ideal.exp_coe]
  have e2 : ∀ t', Ideal.exp (sc t') = ((Real.exp (r t') : ℝ) : EReal) := fun t' => by
    rw [hr t', Ideal.exp_coe]
  simp only [e1, e2]
  rw [zero_add, coe_sum, coe_sum, Ideal.div_coe hL.ne', Ideal.div_coe hS.ne', one_mul, ← EReal.coe_mul, ← EReal.coe_mul,
    real_softmax_shift]

/-- The fold of `max` from ⊥ over a nonempty finite family of reals, joined with ⊥ once more, is a real. -/
theorem fold_max_real {ι : Type*} [Fintype ι] [Nonempty ι] (sc : ι → EReal) (hsc : ∀ t, ∃ r : ℝ, sc t = (r : EReal))
    (b : EReal) (hb : b = ⊥) :
    ∃ μ : ℝ, max b ((Finset.univ : Finset ι).fold max b sc) = (μ : EReal) := by
  subst hb
  rw [max_eq_right bot_le]
  have hlt : (Finset.univ : Finset ι).fold max ⊥ sc < ⊤ :=
    (Finset.fold_max_lt _).2 ⟨bot_lt_top, fun x _ => by obtain ⟨r, hr⟩ := hsc x; rw [hr]; exact EReal.coe_lt_top r⟩
  have hgt : ⊥ < (Finset.univ : Finset ι).fold max ⊥ sc :=
    (Finset.lt_fold_max _).2 (Or.inr ⟨Classical.arbitrary ι, Finset.mem_univ _, by
      obtain ⟨r, hr⟩ := hsc (Classical.arbitrary ι); rw [hr]; exact EReal.bot_lt_coe r⟩)
  exact ⟨_, (EReal.coe_toReal hlt.ne hgt.ne').symm⟩

end Attn.Ref
-- ==== Proof.RefProj.lean ====
/-
  The three projections of the reference program, read at an index: the key, the query and the value arrays
  are the specification's `keyAt`, `queryAt` and `valAt`.

  Each is a hyperbolic tangent of a contraction (plus, for key and query, a bias broadcast along the two leading
  axes). The contraction of the query is over an axis of extent one, so its sum is its single term.
  The two f32 constants of the specification are the reals 1/8 and 1.
-/
import proofs.«104109_j58385785422224_2_alg».proof.Proof.Spec
import proofs.«104109_j58385785422224_2_alg».proof.Proof.Gen.ReferenceIdeal.Read

noncomputable section

namespace Attn.Ref

open Cert.ReferenceIdeal Cert.ReferenceIdeal.Gen Cert.ReferenceIdeal.Read Idealize.ShloMosaic Idealize.ShloMosaic.ValueIdx
open scoped BigOperators

/-- The word 0x3F800000 denotes 1. -/
theorem one_eq : Attn.one = 1 := by
  simp [Attn.one, Ideal.ofBits, Ideal.ieee]; norm_cast; norm_num

/-- The word 0x3E000000 denotes the real 1/8. -/
theorem eighth_eq : Attn.eighth = ((1 / 8 : ℝ) : EReal) := by
  simp [Attn.eighth, Ideal.ofBits, Ideal.ieee]; norm_cast; norm_num

/-- The word 0xFF800000 denotes −∞. -/
theorem neg_inf_eq : Ideal.ofBits .f32 0xFF800000#32 = (⊥ : EReal) := by
  simp [Ideal.ofBits, Ideal.ieee]

/-- The key array at (b, s, h). -/
theorem v4_eq (x1 : (⟨S4x4096x512, .f32⟩ : BufTy).Contents (Elt Ideal)) (x2 : (⟨S64x512, .f32⟩ : BufTy).Contents (Elt Ideal)) (x3 : (⟨S64, .f32⟩ : BufTy).Contents (Elt Ideal)) (b : Fin 4) (s : Fin 4096) (h : Fin 64) :
    val_main_v4 (F := Ideal) x1 x2 x3 (ix3 b s h) = Attn.keyAt x1 x2 x3 b s h := by
  rw [val_main_v4_apply, val_main_v3_apply, val_main_v0_apply, val_main_v2_apply, val_main_v1_apply]
  have e1 : ∀ k : Fin 512, lidx_main_v0 (ix3 b s h) k = ix3 b s k := fun k => funext fun a => Fin.ext (by
    match a with | ⟨0, _⟩ => rfl | ⟨1, _⟩ => rfl | ⟨2, _⟩ => rfl)
  have e2 : ∀ k : Fin 512, ridx_main_v0 (ix3 b s h) k = ix2 h k := fun k => funext fun a => Fin.ext (by
    match a with | ⟨0, _⟩ => rfl | ⟨1, _⟩ => rfl)
  have e3 : idx_main_v1 (idx_main_v2 (ix3 b s h)) = ix1 h := funext fun a => Fin.ext (by
    match a with | ⟨0, _⟩ => rfl)
  simp only [e1, e2, e3, Ideal.hostUnary_tanh_def, Ideal.addf_def]
  rfl

/-- The value array at (b, s, h). -/
theorem v25_eq (x1 : (⟨S4x4096x512, .f32⟩ : BufTy).Contents (Elt Ideal)) (x6 : (⟨S64x512, .f32⟩ : BufTy).Contents (Elt Ideal)) (b : Fin 4) (s : Fin 4096) (h : Fin 64) :
    val_main_v25 (F := Ideal) x1 x6 (ix3 b s h) = Attn.valAt x1 x6 b s h := by
  rw [val_main_v25_apply, val_main_v24_apply]
  have e1 : ∀ k : Fin 512, lidx_main_v24 (ix3 b s h) k = ix3 b s k := fun k => funext fun a => Fin.ext (by
    match a with | ⟨0, _⟩ => rfl | ⟨1, _⟩ => rfl | ⟨2, _⟩ => rfl)
  have e2 : ∀ k : Fin 512, ridx_main_v24 (ix3 b s h) k = ix2 h k := fun k => funext fun a => Fin.ext (by
    match a with | ⟨0, _⟩ => rfl | ⟨1, _⟩ => rfl)
  simp only [e1, e2, Ideal.hostUnary_tanh_def]
  rfl

/-- The query array at (b, t, h): the contraction over the axis of extent one is its single term. -/
theorem v9_eq (x0 : (⟨S4x4096x1, .f32⟩ : BufTy).Contents (Elt Ideal)) (x4 : (⟨S64x1, .f32⟩ : BufTy).Contents (Elt Ideal)) (x5 : (⟨S64, .f32⟩ : BufTy).Contents (Elt Ideal)) (b : Fin 4) (t : Fin 4096) (h : Fin 64) :
    val_main_v9 (F := Ideal) x0 x4 x5 (ix3 b t h) = Attn.queryAt x0 x4 x5 b t h := by
  rw [val_main_v9_apply, val_main_v8_apply, val_main_v5_apply, val_main_v7_apply, val_main_v6_apply, Fin.sum_univ_one]
  have e1 : lidx_main_v5 (ix3 b t h) 0 = ix3 b t 0 := funext fun a => Fin.ext (by
    match a with | ⟨0, _⟩ => rfl | ⟨1, _⟩ => rfl | ⟨2, _⟩ => rfl)
  have e2 : ridx_main_v5 (ix3 b t h) 0 = ix2 h 0 := funext fun a => Fin.ext (by
    match a with | ⟨0, _⟩ => rfl | ⟨1, _⟩ => rfl)
  have e3 : idx_main_v6 (idx_main_v7 (ix3 b t h)) = ix1 h := funext fun a => Fin.ext (by
    match a with | ⟨0, _⟩ => rfl)
  simp only [e1, e2, e3, Ideal.hostUnary_tanh_def, Ideal.addf_def]
  rfl

end Attn.Ref

end
-- ==== Proof.RefScore.lean ====
/-
  The scaled scores of the reference program and its column maximum.

  The product of the query and key arrays over the head axis, times the constant 1/8, read at (b, t, s), is the
  specification's `score b t s`. Every score is a real number: it is a finite sum of products of hyperbolic
  tangents, each of which is a real, times the real 1/8. The reference then takes, for each (b, s), the maximum
  over t of the scores starting from −∞, and joins it with −∞ once more; over the 4096 > 0 real scores of a column
  this maximum is a real number.
-/
import proofs.«104109_j58385785422224_2_alg».proof.Proof.RefSoftmax
import proofs.«104109_j58385785422224_2_alg».proof.Proof.RefProj

noncomputable section

namespace Attn.Ref

open Cert.ReferenceIdeal Cert.ReferenceIdeal.Gen Cert.ReferenceIdeal.Read Idealize.ShloMosaic Idealize.ShloMosaic.ValueIdx
open scoped BigOperators

/-- The scaled score array at (b, t, s). -/
theorem v12_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (b : Fin 4) (t s : Fin 4096) :
    val_main_v12 (F := Ideal) x0 x1 x2 x3 x4 x5 (ix3 b t s) = Attn.score x0 x1 x2 x3 x4 x5 b t s := by
  rw [val_main_v12_apply, val_main_v10_apply, val_main_v11_apply, val_main_cst_apply]
  have e1 : ∀ k : Fin 64, lidx_main_v10 (ix3 b t s) k = ix3 b t k := fun k => funext fun a => Fin.ext (by
    match a with | ⟨0, _⟩ => rfl | ⟨1, _⟩ => rfl | ⟨2, _⟩ => rfl)
  have e2 : ∀ k : Fin 64, ridx_main_v10 (ix3 b t s) k = ix3 b s k := fun k => funext fun a => Fin.ext (by
    match a with | ⟨0, _⟩ => rfl | ⟨1, _⟩ => rfl | ⟨2, _⟩ => rfl)
  simp only [e1, e2, v9_eq, v4_eq, Ideal.mulf_def, Ideal.ofBits_def]
  rfl

/-- Every score is a real number, whatever the inputs are. -/
theorem score_real (x : Attn.TX) (tok : Attn.TTok) (kw : Attn.TW) (kb : Attn.TB) (qw : Attn.TQW) (qb : Attn.TB)
    (b : Fin 4) (t s : Fin 4096) : ∃ r : ℝ, Attn.score x tok kw kb qw qb b t s = (r : EReal) := by
  obtain ⟨ρ, hρ⟩ := sum_mul_real (fun h : Fin 64 => Attn.queryAt x qw qb b t h) (fun h => Attn.keyAt tok kw kb b s h)
    (fun h => tanh_real _) (fun h => tanh_real _)
  exact ⟨ρ * (1 / 8), by unfold Attn.score; rw [hρ, eighth_eq, EReal.coe_mul]⟩

/-- So every element of the score array is a real number. -/
theorem v12_real (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (i : S4x4096x4096.Idx) :
    ∃ r : ℝ, val_main_v12 (F := Ideal) x0 x1 x2 x3 x4 x5 i = (r : EReal) := by
  obtain ⟨b, t, s, rfl⟩ : ∃ (b : Fin 4) (t s : Fin 4096), i = ix3 b t s := ⟨i 0, i 1, i 2, eq_ix3 i⟩
  rw [v12_eq]
  exact score_real x0 x1 x2 x3 x4 x5 b t s

/-- The column maximum (the reduce from −∞ over the query axis, joined with −∞) is a real number at every (b, s). -/
theorem v15_real (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (j : S4x4096.Idx) :
    ∃ μ : ℝ, val_main_v15 (F := Ideal) x0 x1 x2 x3 x4 x5 j = (μ : EReal) := by
  have hR : S4x4096x4096.Reduces [1] S4x4096 := by decide
  rw [val_main_v15_apply, val_main_v14_apply, val_main_cst_1_apply]
  unfold val_main_v13
  rw [Host.reduce_eq_fold_single FloatOps.maximumf _ _ reducesTo_S4x4096x4096_S4x4096_d1 hR h_S_ j, val_main_cst_0_apply]
  haveI : Nonempty (Fin (S4x4096x4096.size 1)) := ⟨⟨0, by decide⟩⟩
  exact fold_max_real (ι := Fin (S4x4096x4096.size 1)) (val_main_v12 (F := Ideal) x0 x1 x2 x3 x4 x5 ∘ hR.lift j)
    (fun k => v12_real x0 x1 x2 x3 x4 x5 _) (Ideal.ofBits .f32 0xFF800000#32) neg_inf_eq

end Attn.Ref

end
-- ==== Proof.RefSide.lean ====
/-
  The reference program computes the specification: its result array is `Attn.result` of its nine arguments.

  The softmax of the reference is the shifted one: with m (b, s) the column maximum of the scores (a real number),
      weight' b t s = exp (score b t s − m) / (0 + ∑ t', exp (score b t' s − m)),
  which is the specification's exp (score b t s) · (1 / ∑ t', exp (score b t' s)) because the scores are real and the
  shift cancels. The rest is one expression on both sides once the indices are named by their coordinates: the mix is
  the contraction of the weights with the value array over the key axis, the output the contraction of its hyperbolic
  tangent with the projection row over the head axis plus the bias, and the final reshape drops the axis of extent one.
-/
import proofs.«104109_j58385785422224_2_alg».proof.Proof.RefScore

noncomputable section

namespace Attn.Ref

open Cert.ReferenceIdeal Cert.ReferenceIdeal.Gen Cert.ReferenceIdeal.Read Idealize.ShloMosaic Idealize.ShloMosaic.ValueIdx
open scoped BigOperators

/-- The exponential of the shifted score at (b, t, s): the shift is the column maximum at (b, s). -/
theorem v19_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (b : Fin 4) (t s : Fin 4096) :
    val_main_v19 (F := Ideal) x0 x1 x2 x3 x4 x5 (ix3 b t s)
      = Ideal.exp (Attn.score x0 x1 x2 x3 x4 x5 b t s - val_main_v15 (F := Ideal) x0 x1 x2 x3 x4 x5 (ix2 b s)) := by
  rw [val_main_v19_apply, val_main_v18_apply, val_main_v17_apply, val_main_v16_apply, v12_eq]
  have e : idx_main_v16 (idx_main_v17 (ix3 b t s)) = ix2 b s := funext fun a => Fin.ext (by
    match a with | ⟨0, _⟩ => rfl | ⟨1, _⟩ => rfl)
  rw [e, Ideal.hostUnary_exp_def, Ideal.subf_def]

/-- The column sum of the shifted exponentials at (b, s), from the zero initial value. -/
theorem v20_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (b : Fin 4) (s : Fin 4096) :
    val_main_v20 (F := Ideal) x0 x1 x2 x3 x4 x5 (ix2 b s)
      = Ideal.ofBits .f32 0x00000000#32
        + ∑ k : Fin 4096, Ideal.exp (Attn.score x0 x1 x2 x3 x4 x5 b k s - val_main_v15 (F := Ideal) x0 x1 x2 x3 x4 x5 (ix2 b s)) := by
  rw [val_main_v20_apply, val_main_cst_2_apply, Ideal.ofBits_def]
  refine congrArg (Ideal.ofBits .f32 0x00000000#32 + ·) (Finset.sum_congr rfl fun k _ => ?_)
  have e : idx_main_v20 (ix2 b s) k = ix3 b k s := funext fun a => Fin.ext (by
    match a with | ⟨0, _⟩ => rfl | ⟨1, _⟩ => rfl | ⟨2, _⟩ => rfl)
  rw [e, v19_eq]

/-- The softmax weights at (b, t, s): the shifted quotient is the specification's weight. -/
theorem v23_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (b : Fin 4) (t s : Fin 4096) :
    val_main_v23 (F := Ideal) x0 x1 x2 x3 x4 x5 (ix3 b t s) = Attn.weight x0 x1 x2 x3 x4 x5 b t s := by
  rw [val_main_v23_apply, val_main_v22_apply, val_main_v21_apply, v19_eq]
  have e : idx_main_v21 (idx_main_v22 (ix3 b t s)) = ix2 b s := funext fun a => Fin.ext (by
    match a with | ⟨0, _⟩ => rfl | ⟨1, _⟩ => rfl)
  rw [e, v20_eq, Ideal.hostDivf_def]
  haveI : Nonempty (Fin 4096) := ⟨⟨0, by decide⟩⟩
  exact softmax_shift (fun t' : Fin 4096 => Attn.score x0 x1 x2 x3 x4 x5 b t' s) (fun t' => score_real x0 x1 x2 x3 x4 x5 b t' s)
    (val_main_v15 (F := Ideal) x0 x1 x2 x3 x4 x5 (ix2 b s)) (Ideal.ofBits .f32 0x00000000#32) Attn.one
    (v15_real x0 x1 x2 x3 x4 x5 (ix2 b s)) Ideal.ofBits_zero_f32 one_eq t

/-- The mix at (b, t, h): the weights contracted with the value array over the key axis. -/
theorem v26_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (x6 : (⟨S64x512, .f32⟩ : BufTy).Contents (Elt Ideal)) (b : Fin 4) (t : Fin 4096) (h : Fin 64) :
    val_main_v26 (F := Ideal) x0 x1 x2 x3 x4 x5 x6 (ix3 b t h) = Attn.mix x0 x1 x2 x3 x4 x5 x6 b t h := by
  rw [val_main_v26_apply]
  unfold Attn.mix
  refine Finset.sum_congr rfl fun k _ => ?_
  have e1 : lidx_main_v26 (ix3 b t h) k = ix3 b t k := funext fun a => Fin.ext (by
    match a with | ⟨0, _⟩ => rfl | ⟨1, _⟩ => rfl | ⟨2, _⟩ => rfl)
  have e2 : ridx_main_v26 (ix3 b t h) k = ix3 b k h := funext fun a => Fin.ext (by
    match a with | ⟨0, _⟩ => rfl | ⟨1, _⟩ => rfl | ⟨2, _⟩ => rfl)
  rw [e1, e2, v23_eq, v25_eq]

/-- The projection at (b, t, 0): the hyperbolic tangent of the mix contracted with the projection row. -/
theorem v28_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (x6 : (⟨S64x512, .f32⟩ : BufTy).Contents (Elt Ideal)) (x7 : (⟨S1x64, .f32⟩ : BufTy).Contents (Elt Ideal)) (b : Fin 4) (t : Fin 4096) :
    val_main_v28 (F := Ideal) x0 x1 x2 x3 x4 x5 x6 x7 (ix3 b t 0)
      = ∑ h : Fin 64, Ideal.tanh (Attn.mix x0 x1 x2 x3 x4 x5 x6 b t h) * x7 (ix2 0 h) := by
  rw [val_main_v28_apply]
  refine Finset.sum_congr rfl fun k _ => ?_
  have e1 : lidx_main_v28 (ix3 b t 0) k = ix3 b t k := funext fun a => Fin.ext (by
    match a with | ⟨0, _⟩ => rfl | ⟨1, _⟩ => rfl | ⟨2, _⟩ => rfl)
  have e2 : ridx_main_v28 (ix3 b t 0) k = ix2 0 k := funext fun a => Fin.ext (by
    match a with | ⟨0, _⟩ => rfl | ⟨1, _⟩ => rfl)
  rw [e1, e2, val_main_v27_apply, v26_eq, Ideal.hostUnary_tanh_def]

/-- The result at (b, t): the reshape reads the biased projection at (b, t, 0). -/
theorem v32_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (x6 : (⟨S64x512, .f32⟩ : BufTy).Contents (Elt Ideal)) (x7 : (⟨S1x64, .f32⟩ : BufTy).Contents (Elt Ideal)) (x8 : (⟨S1, .f32⟩ : BufTy).Contents (Elt Ideal)) (b : Fin 4) (t : Fin 4096) :
    val_main_v32 (F := Ideal) x0 x1 x2 x3 x4 x5 x6 x7 x8 (ix2 b t) = Attn.out x0 x1 x2 x3 x4 x5 x6 x7 x8 b t := by
  rw [val_main_v32_apply]
  have e : idx_main_v32 (ix2 b t) = ix3 b t 0 := funext fun a => Fin.ext (by
    match a with
    | ⟨0, _⟩ => show (b.val * 4096 + t.val) / 4096 = b.val; have := t.isLt; omega
    | ⟨1, _⟩ => show (b.val * 4096 + t.val) / 1 % 4096 = t.val; have := t.isLt; omega
    | ⟨2, _⟩ => rfl)
  rw [e, val_main_v31_apply, v28_eq, val_main_v30_apply, val_main_v29_apply]
  have e' : idx_main_v29 (idx_main_v30 (ix3 b t 0)) = ix1 0 := funext fun a => Fin.ext (by
    match a with | ⟨0, _⟩ => rfl)
  rw [e', Ideal.addf_def]
  rfl

/-- THE REFERENCE SIDE: the reference program's result is the specification's result array. -/
theorem result_eq (x0 : (⟨S4x4096x1, .f32⟩ : BufTy).Contents (Elt Ideal)) (x1 : (⟨S4x4096x512, .f32⟩ : BufTy).Contents (Elt Ideal)) (x2 : (⟨S64x512, .f32⟩ : BufTy).Contents (Elt Ideal)) (x3 : (⟨S64, .f32⟩ : BufTy).Contents (Elt Ideal)) (x4 : (⟨S64x1, .f32⟩ : BufTy).Contents (Elt Ideal)) (x5 : (⟨S64, .f32⟩ : BufTy).Contents (Elt Ideal)) (x6 : (⟨S64x512, .f32⟩ : BufTy).Contents (Elt Ideal)) (x7 : (⟨S1x64, .f32⟩ : BufTy).Contents (Elt Ideal)) (x8 : (⟨S1, .f32⟩ : BufTy).Contents (Elt Ideal)) :
    Cert.ReferenceIdeal.Read.val_main_v32 (F := Ideal) x0 x1 x2 x3 x4 x5 x6 x7 x8
      = Attn.result x0 x1 x2 x3 x4 x5 x6 x7 x8 := by
  funext i
  obtain ⟨b, t, rfl⟩ : ∃ (b : Fin 4) (t : Fin 4096), i = ix2 b t := ⟨i 0, i 1, eq_ix2 i⟩
  rw [v32_eq]
  rfl

end Attn.Ref

end
-- ==== Proof.lean ====
/-
  Single-head attention with the softmax taken over the QUERY axis, as a two-call kernel program against its jnp
  reference, on the extended reals.

  Both programs compute, for batch `b` and query position `t`,
      out b t = (∑ h, tanh (∑ s, w b t s · v b s h) · proj_w 0 h) + proj_b 0,
      w b t s = exp (score b t s) / ∑ t', exp (score b t' s),   score = (q · k) / 8,
  with `q`, `k`, `v` hyperbolic tangents of affine maps of the inputs (`Proof/Spec.lean`). The kernel program projects
  keys and values in one call (stacked weights, the key bias padded with zeros) and in a second call walks the 4096 key
  positions in sixteen tiles of 256, normalising each tile's exponentials by their sum over all 4096 queries and
  accumulating the weighted values; the reference subtracts each key column's maximum before exponentiating. The two
  agree for every input: a hyperbolic tangent is a real in [-1, 1] whatever its argument, so every score is a real, the
  column maximum is a real, and exp (r - μ) / ∑ exp (r' - μ) = exp r · (1 / ∑ exp r'); the tiled accumulation is a
  regrouping of one sum. No hypothesis on the inputs is used.

  The kernel side (`Proof/KValue.lean`, over `KRun`, `KFold`, `KBlocks`, `KInputs`, `KScratch`, `KPay1`, `KPay2`) reads the
  program's result buffer as the specification's array; the reference side (`Proof/RefSide.lean`) reads the reference
  program's result term as the same array.
-/
import proofs.«104109_j58385785422224_2_alg».proof.Defs
import proofs.«104109_j58385785422224_2_alg».proof.Proof.Gen.Kernel
import proofs.«104109_j58385785422224_2_alg».proof.Proof.Gen.Kernel.Frame
import proofs.«104109_j58385785422224_2_alg».proof.Proof.Gen.KernelIdeal
import proofs.«104109_j58385785422224_2_alg».proof.Proof.Gen.KernelIdeal.Frame
import proofs.«104109_j58385785422224_2_alg».proof.Proof.Gen.ReferenceIdeal
import proofs.«104109_j58385785422224_2_alg».proof.Proof.Gen.ReferenceIdeal.Run
import proofs.«104109_j58385785422224_2_alg».proof.Proof.Gen.ReferenceIdeal.Read
import proofs.«104109_j58385785422224_2_alg».proof.Proof.Gen.Pre_finite_inputs
import proofs.«104109_j58385785422224_2_alg».proof.Proof.KRun
import proofs.«104109_j58385785422224_2_alg».proof.Proof.KValue
import proofs.«104109_j58385785422224_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Gen.frame m ρ

/-- So does the kernel program read on the extended reals. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the nine arguments both programs end with the specification's result array of those
    arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨((h c).1).trans (Cert.KernelIdeal.AttnK.result_eq m ρ c), (h c).2⟩)
      (Cert.KernelIdeal.AttnK.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v32_eq, Attn.Ref.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
